-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000 : Shape := ⟨1, ![1600000]⟩
abbrev S119x64 : Shape := ⟨2, ![119, 64]⟩
abbrev S16x64 : Shape := ⟨2, ![16, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S119x64 : S_.BroadcastsInDim S119x64 (![] : Fin 0 → Fin S119x64.rank)
  reducesTo_S119x64_S_d0_1 : S119x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg18 : FVec F S128x128 .f32) (main_arg19 : FVec F S128 .f32) (main_arg20 : FVec F S128x128 .f32) (main_arg21 : FVec F S128 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_v83 main_v84 main_cst_32

def fn_part3 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_v63 main_v67

def fn_part2 {F : FTy → Type} [FloatOps F] (main_arg11 : FVec F S128 .f32) (main_arg12 : FVec F S64x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg12
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_v48 main_v49 main_v50

def fn_part1 {F : FTy → Type} [FloatOps F] (main_arg8 : FVec F S64x128 .f32) (main_arg9 : FVec F S128 .f32) (main_arg10 : FVec F S128x128 .f32) (main_arg11 : FVec F S128 .f32) (main_arg12 : FVec F S64x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : IVec S100000 32) (main_arg1 : IVec S2x1600000 32) (main_arg2 : IVec S1600000 32) (main_arg3 : IVec S100000 32) (main_arg4 : FVec F S119x64 .f32) (main_arg5 : FVec F S16x64 .f32) (main_arg6 : FVec F S64x64 .f32) (main_arg7 : FVec F S64 .f32) (main_arg8 : FVec F S64x128 .f32) (main_arg9 : FVec F S128 .f32) (main_arg10 : FVec F S128x128 .f32) (main_arg11 : FVec F S128 .f32) (main_arg12 : FVec F S64x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) : IVec S_ 1 :=
  let main_v0 : FVec F S119x64 .f32 := Host.absf main_arg4
  let main_cst : FVec F S_ .f32 := constant S_ .f32 0x7F800000#32
  let main_v1 : FVec F S119x64 .f32 := broadcastInDim S119x64 ![] bcast_S_S119x64 main_cst
  let main_v2 : IVec S119x64 1 := cmpf .olt main_v0 main_v1
  let main_c : IVec S_ 1 := constantI S_ 1 1#1
  let main_v3 : IVec S_ 1 := (fun x v => Host.reduce IntOp.andi x v reducesTo_S119x64_S_d0_1 h_S_) main_v2 main_c
  let main_v4 : FVec F S16x64 .f32 := Host.absf main_arg5
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S100000 : Shape := ⟨1, ![100000]⟩
abbrev S2x1600000 : Shape := ⟨2, ![2, 1600000]⟩
abbrev S1600000 : Shape := ⟨1, ![1600000]⟩
abbrev S119x64 : Shape := ⟨2, ![119, 64]⟩
abbrev S16x64 : Shape := ⟨2, ![16, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x1600000 : Shape := ⟨2, ![1, 1600000]⟩
abbrev S1x64 : Shape := ⟨2, ![1, 64]⟩
abbrev S16000x64 : Shape := ⟨2, ![16000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S8000x128 : Shape := ⟨2, ![8000, 128]⟩
abbrev S8000x64 : Shape := ⟨2, ![8000, 64]⟩
abbrev S512x128 : Shape := ⟨2, ![512, 128]⟩

abbrev nBuf : Space → Nat
  | .hbm => 87
  | .vmem => 42
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000, .i32⟩
  | .hbm, ⟨3, _⟩ => ⟨S100000, .i32⟩
  | .hbm, ⟨4, _⟩ => ⟨S119x64, .f32⟩
  | .hbm, ⟨5, _⟩ => ⟨S16x64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S64x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1x1600000, .i32⟩
  | .hbm, ⟨41, _⟩ => ⟨S1600000, .i32⟩
  | .hbm, ⟨42, _⟩ => ⟨S1x1600000, .i32⟩
  | .hbm, ⟨43, _⟩ => ⟨S1600000, .i32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S1x128, .f32⟩
  | .hbm, ⟨72, _⟩ => ⟨S1600000x128, .f32⟩
  | .hbm, ⟨73, _⟩ => ⟨S_, .f32⟩
  | .hbm, ⟨74, _⟩ => ⟨S100000x128, .f32⟩
  | .hbm, ⟨75, _⟩ => ⟨S1600000x1, .i32⟩
  | .hbm, ⟨76, _⟩ => ⟨S100000x128, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S_, .f32⟩
  | .hbm, ⟨81, _⟩ => ⟨S512x128, .f32⟩
  | .hbm, ⟨82, _⟩ => ⟨S100000x1, .i32⟩
  | .hbm, ⟨83, _⟩ => ⟨S512x128, .f32⟩
  | .hbm, ⟨84, _⟩ => ⟨S1x128, .f32⟩
  | .hbm, ⟨85, _⟩ => ⟨S1x128, .f32⟩
  | .hbm, ⟨86, _⟩ => ⟨S512x128, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S64x64, .f32⟩
  | .local _ .vmem, ⟨5, _⟩ => ⟨S1x64, .f32⟩
  | .local _ .vmem, ⟨6, _⟩ => ⟨S16000x64, .f32⟩
  | .local _ .vmem, ⟨7, _⟩ => ⟨S16000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S8000x128, .f32⟩
  | .local _ .vmem, ⟨19, _⟩ => ⟨S8000x128, .f32⟩
  | .local _ .vmem, ⟨20, _⟩ => ⟨S8000x64, .f32⟩
  | .local _ .vmem, ⟨21, _⟩ => ⟨S8000x64, .f32⟩
  | .local _ .vmem, ⟨22, _⟩ => ⟨S64x128, .f32⟩
  | .local _ .vmem, ⟨23, _⟩ => ⟨S1x128, .f32⟩
  | .local _ .vmem, ⟨24, _⟩ => ⟨S8000x128, .f32⟩
  | .local _ .vmem, ⟨25, _⟩ => ⟨S8000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S512x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S512x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x128_S8000x128 : S1x128.Broadcasts S8000x128
  bcast_S_S100000x128 : S_.BroadcastsInDim S100000x128 (![] : Fin 0 → Fin S100000x128.rank)
  shapeCasts_S5000x128_S5000x128 : S5000x128.ShapeCasts S5000x128
  bcast_S_S512x128 : S_.BroadcastsInDim S512x128 (![] : Fin 0 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  gather_S119x64_S100000x1_S100000x64_1_0_n_n_0_1_164_wf : GatherDims.WF S119x64 S100000x1 S100000x64 [1] [0] [] [0] [] 1 ![1, 64]
  gather_S16x64_S1600000x1_S1600000x64_1_0_n_n_0_1_164_wf : GatherDims.WF S16x64 S1600000x1 S1600000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S16000x64_S64x64_S16000x64_1_0_0_1_n_n_wf : DotDims.WF S16000x64 S64x64 S16000x64 [1] [0] [0] [1] [] []
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  dot_S8000x64_S64x128_S8000x128_1_0_0_1_n_n_wf : DotDims.WF S8000x64 S64x128 S8000x128 [1] [0] [0] [1] [] []
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .f32 = 32 ∨ (Rect.block (s := S1600000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16000x64.size a ≤ S1600000x64.size a
  hwx0_4 : ∀ i : grid0.Coords, EltTy.bits .f32 = 32 ∨ (Rect.block (s := S1600000x64) S16000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S1600000x128.size a
  hwx2_4 : ∀ i : grid2.Coords, EltTy.bits .f32 = 32 ∨ (Rect.block (s := S1600000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .f32 = 32 ∨ (Rect.block (s := S512x128) S512x128.size (cc4_transform_5 i) (hinb4_5 i)).WholeWords (EltTy.packing .f32)

variable [Facts₀]

def gather_S119x64_S100000x1_S100000x64_1_0_n_n_0_1_164 : GatherDims S119x64 S100000x1 S100000x64 where
  offsetDims := [1]
  collapsedSliceDims := [0]
  operandBatchingDims := []
  startIndicesBatchingDims := []
  startIndexMap := [0]
  indexVectorDim := 1
  sliceSizes := ![1, 64]
  wf := gather_S119x64_S100000x1_S100000x64_1_0_n_n_0_1_164_wf
def gather_S16x64_S1600000x1_S1600000x64_1_0_n_n_0_1_164 : GatherDims S16x64 S1600000x1 S1600000x64 where
  offsetDims := [1]
  collapsedSliceDims := [0]
  operandBatchingDims := []
  startIndicesBatchingDims := []
  startIndexMap := [0]
  indexVectorDim := 1
  sliceSizes := ![1, 64]
  wf := gather_S16x64_S1600000x1_S1600000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v24) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S16000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v50) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S512x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000 : Shape := ⟨1, ![1600000]⟩
abbrev S119x64 : Shape := ⟨2, ![119, 64]⟩
abbrev S16x64 : Shape := ⟨2, ![16, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x1600000 : Shape := ⟨2, ![1, 1600000]⟩
abbrev S1x64 : Shape := ⟨2, ![1, 64]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩

abbrev nBuf : Space → Nat
  | .hbm => 179
  | .vmem => 0
  | .smem => 0
  | _ => 0

abbrev hbmTy0_0 (i : Nat) : BufTy := match i % 128 with
  | 0 => ⟨S100000, .i32⟩
  | 1 => ⟨S2x1600000, .i32⟩
  | 2 => ⟨S1600000, .i32⟩
  | 3 => ⟨S100000, .i32⟩
  | 4 => ⟨S119x64, .f32⟩
  | 5 => ⟨S16x64, .f32⟩
  | 6 => ⟨S64x64, .f32⟩
  | 7 => ⟨S64, .f32⟩
  | 8 => ⟨S64x128, .f32⟩
  | 9 => ⟨S128, .f32⟩
  | 10 => ⟨S128x128, .f32⟩
  | 11 => ⟨S128, .f32⟩
  | 12 => ⟨S64x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1x1600000, .i32⟩
  | 41 => ⟨S1600000, .i32⟩
  | 42 => ⟨S1x1600000, .i32⟩
  | 43 => ⟨S1600000, .i32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S1x64, .f32⟩
  | 56 => ⟨S1600000x64, .f32⟩
  | 57 => ⟨S1600000x64, .f32⟩
  | 58 => ⟨S_, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S100000x64, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .i1⟩
  | 73 => ⟨S_, .f32⟩
  | 74 => ⟨S100000x128, .f32⟩
  | 75 => ⟨S100000x128, .i1⟩
  | 76 => ⟨S_, .f32⟩
  | 77 => ⟨S_, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .i1⟩
  | 92 => ⟨S_, .f32⟩
  | 93 => ⟨S100000x128, .f32⟩
  | 94 => ⟨S100000x128, .i1⟩
  | 95 => ⟨S_, .f32⟩
  | 96 => ⟨S_, .f32⟩
  | 97 => ⟨S100000x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x128, .f32⟩
  | 114 => ⟨S1600000x128, .f32⟩
  | 115 => ⟨S1x128, .f32⟩
  | 116 => ⟨S1600000x128, .f32⟩
  | 117 => ⟨S1600000x128, .f32⟩
  | 118 => ⟨S_, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S100000x128, .f32⟩
  | 126 => ⟨S100000x128, .f32⟩
  | 127 => ⟨S1x128, .f32⟩
  | _ => ⟨S100000, .i32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .i1⟩
  | 5 => ⟨S_, .f32⟩
  | 6 => ⟨S100000x128, .f32⟩
  | 7 => ⟨S100000x128, .i1⟩
  | 8 => ⟨S_, .f32⟩
  | 9 => ⟨S_, .f32⟩
  | 10 => ⟨S100000x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .i1⟩
  | 24 => ⟨S_, .f32⟩
  | 25 => ⟨S100000x128, .f32⟩
  | 26 => ⟨S100000x128, .i1⟩
  | 27 => ⟨S_, .f32⟩
  | 28 => ⟨S_, .f32⟩
  | 29 => ⟨S100000x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S_, .f32⟩
  | 37 => ⟨S512x128, .f32⟩
  | 38 => ⟨S100000x1, .i32⟩
  | 39 => ⟨S512x128, .f32⟩
  | 40 => ⟨S512x128, .f32⟩
  | 41 => ⟨S1x128, .f32⟩
  | 42 => ⟨S512x128, .f32⟩
  | 43 => ⟨S512x128, .f32⟩
  | 44 => ⟨S_, .f32⟩
  | 45 => ⟨S512x128, .f32⟩
  | 46 => ⟨S512x128, .f32⟩
  | 47 => ⟨S512x128, .f32⟩
  | 48 => ⟨S1x128, .f32⟩
  | 49 => ⟨S512x128, .f32⟩
  | 50 => ⟨S512x128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call0_cst : Ref sig .tc := ⟨.hbm, 58, rfl⟩
abbrev main_call0_v0 : Ref sig .tc := ⟨.hbm, 59, rfl⟩
abbrev main_v30 : Ref sig .tc := ⟨.hbm, 60, rfl⟩
abbrev main_cst : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_cst_1 : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_v4 : Ref sig .tc := ⟨.hbm, 79, rfl⟩
abbrev main_call1_v5 : Ref sig .tc := ⟨.hbm, 80, rfl⟩
abbrev main_call1_cst_2 : Ref sig .tc := ⟨.hbm, 81, rfl⟩
abbrev main_call1_v6 : Ref sig .tc := ⟨.hbm, 82, rfl⟩
abbrev main_call1_v7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_cst_1 : Ref sig .tc := ⟨.hbm, 95, rfl⟩
abbrev main_call2_call0_v0 : Ref sig .tc := ⟨.hbm, 96, rfl⟩
abbrev main_call2_call0_v1 : Ref sig .tc := ⟨.hbm, 97, rfl⟩
abbrev main_call2_v4 : Ref sig .tc := ⟨.hbm, 98, rfl⟩
abbrev main_call2_v5 : Ref sig .tc := ⟨.hbm, 99, rfl⟩
abbrev main_call2_cst_2 : Ref sig .tc := ⟨.hbm, 100, rfl⟩
abbrev main_call2_v6 : Ref sig .tc := ⟨.hbm, 101, rfl⟩
abbrev main_call2_v7 : Ref sig .tc := ⟨.hbm, 102, rfl⟩
abbrev main_v44 : Ref sig .tc := ⟨.hbm, 103, rfl⟩
abbrev main_c_5 : Ref sig .tc := ⟨.hbm, 104, rfl⟩
abbrev main_v45 : Ref sig .tc := ⟨.hbm, 105, rfl⟩
abbrev main_v46 : Ref sig .tc := ⟨.hbm, 106, rfl⟩
abbrev main_c_6 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_call3_cst : Ref sig .tc := ⟨.hbm, 118, rfl⟩
abbrev main_call3_v0 : Ref sig .tc := ⟨.hbm, 119, rfl⟩
abbrev main_v57 : Ref sig .tc := ⟨.hbm, 120, rfl⟩
abbrev main_cst_7 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_cst_1 : Ref sig .tc := ⟨.hbm, 136, rfl⟩
abbrev main_call4_call0_v0 : Ref sig .tc := ⟨.hbm, 137, rfl⟩
abbrev main_call4_call0_v1 : Ref sig .tc := ⟨.hbm, 138, rfl⟩
abbrev main_call4_v4 : Ref sig .tc := ⟨.hbm, 139, rfl⟩
abbrev main_call4_v5 : Ref sig .tc := ⟨.hbm, 140, rfl⟩
abbrev main_call4_cst_2 : Ref sig .tc := ⟨.hbm, 141, rfl⟩
abbrev main_call4_v6 : Ref sig .tc := ⟨.hbm, 142, rfl⟩
abbrev main_call4_v7 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_call5_cst : Ref sig .tc := ⟨.hbm, 149, rfl⟩
abbrev main_call5_v0 : Ref sig .tc := ⟨.hbm, 150, rfl⟩
abbrev main_call5_v1 : Ref sig .tc := ⟨.hbm, 151, rfl⟩
abbrev main_call5_cst_0 : Ref sig .tc := ⟨.hbm, 152, rfl⟩
abbrev main_call5_v2 : Ref sig .tc := ⟨.hbm, 153, rfl⟩
abbrev main_call5_v3 : Ref sig .tc := ⟨.hbm, 154, rfl⟩
abbrev main_call5_cst_1 : Ref sig .tc := ⟨.hbm, 155, rfl⟩
abbrev main_call5_call0_v0 : Ref sig .tc := ⟨.hbm, 156, rfl⟩
abbrev main_call5_call0_v1 : Ref sig .tc := ⟨.hbm, 157, rfl⟩
abbrev main_call5_v4 : Ref sig .tc := ⟨.hbm, 158, rfl⟩
abbrev main_call5_v5 : Ref sig .tc := ⟨.hbm, 159, rfl⟩
abbrev main_call5_cst_2 : Ref sig .tc := ⟨.hbm, 160, rfl⟩
abbrev main_call5_v6 : Ref sig .tc := ⟨.hbm, 161, rfl⟩
abbrev main_call5_v7 : Ref sig .tc := ⟨.hbm, 162, rfl⟩
abbrev main_v71 : Ref sig .tc := ⟨.hbm, 163, rfl⟩
abbrev main_cst_8 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_call6_cst : Ref sig .tc := ⟨.hbm, 172, rfl⟩
abbrev main_call6_v0 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S512x128 : S_.BroadcastsInDim S512x128 (![] : Fin 0 → Fin S512x128.rank)
  bcast_S1x128_S512x128_0_1 : S1x128.BroadcastsInDim S512x128 (![0, 1] : Fin 2 → Fin S512x128.rank)
  gather_S119x64_S100000x1_S100000x64_1_0_n_n_0_1_164_wf : GatherDims.WF S119x64 S100000x1 S100000x64 [1] [0] [] [0] [] 1 ![1, 64]
  gather_S16x64_S1600000x1_S1600000x64_1_0_n_n_0_1_164_wf : GatherDims.WF S16x64 S1600000x1 S1600000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x64_S64x128_S1600000x128_1_0_0_1_n_n_wf : DotDims.WF S1600000x64 S64x128 S1600000x128 [1] [0] [0] [1] [] []
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []

variable [Facts₀]

def gather_S119x64_S100000x1_S100000x64_1_0_n_n_0_1_164 : GatherDims S119x64 S100000x1 S100000x64 where
  offsetDims := [1]
  collapsedSliceDims := [0]
  operandBatchingDims := []
  startIndicesBatchingDims := []
  startIndexMap := [0]
  indexVectorDim := 1
  sliceSizes := ![1, 64]
  wf := gather_S119x64_S100000x1_S100000x64_1_0_n_n_0_1_164_wf
def gather_S16x64_S1600000x1_S1600000x64_1_0_n_n_0_1_164 : GatherDims S16x64 S1600000x1 S1600000x64 where
  offsetDims := [1]
  collapsedSliceDims := [0]
  operandBatchingDims := []
  startIndicesBatchingDims := []
  startIndexMap := [0]
  indexVectorDim := 1
  sliceSizes := ![1, 64]
  wf := gather_S16x64_S1600000x1_S1600000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.KernelRun.lean ====
/-
  The idealized kernel program's run, with the contents of every buffer after it.

  The program is five pipelined regions among stretches of host operations.  Its frame follows the contents of the
  TensorCore's buffers from the launch through every boundary between a stretch and a region, ending at the contents
  after the last region.  Every weakly fair execution terminates without a fault in a state whose every unscoped
  buffer holds exactly those last contents: the same launch of the regions over the same segments as the frame's,
  keeping in the last step the whole of what it knows about the final state.
-/
import proofs.«104450_j5282809774138_1_alg».proof.Proof.GenP.KernelIdeal.Frame

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state has each unscoped
    buffer of each core at the contents the fold through the segments ends with. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- A buffer that is not scoped is among the unscoped ones. -/
theorem result_mem : Proc.devRef .tc main_v53 ∈ Pipeline.ucRefs τ sig := mem_uc main_v53 (by decide)

/-- The run with the result buffer and the argument arrays read off the final contents: the result holds the fold's
    last contents at its buffer, each argument what it held at the launch. -/
theorem run_result : θ_run defs (onTc (τ := τ) (main (F := F))) ⟨m, fun _ => 0, ρ⟩ (fun r => ∀ c : Dev nD,
      r.2.mem ((c.tc : Thread nD τ).loc main_v53) = W10 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun s h c =>
    ⟨h c _ (mem_uc main_v53 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c),
     (h c _ (mem_uc main_arg13 (by decide))).trans (W10_main_arg13 m ρ c),
     (h c _ (mem_uc main_arg14 (by decide))).trans (W10_main_arg14 m ρ c),
     (h c _ (mem_uc main_arg15 (by decide))).trans (W10_main_arg15 m ρ c),
     (h c _ (mem_uc main_arg16 (by decide))).trans (W10_main_arg16 m ρ c),
     (h c _ (mem_uc main_arg17 (by decide))).trans (W10_main_arg17 m ρ c),
     (h c _ (mem_uc main_arg18 (by decide))).trans (W10_main_arg18 m ρ c),
     (h c _ (mem_uc main_arg19 (by decide))).trans (W10_main_arg19 m ρ c),
     (h c _ (mem_uc main_arg20 (by decide))).trans (W10_main_arg20 m ρ c),
     (h c _ (mem_uc main_arg21 (by decide))).trans (W10_main_arg21 m ρ c)⟩)
    (run_contents m ρ)

end Cert.KernelIdeal.Run

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«104450_j5282809774138_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibGraphLayers.lean ====
/-
  Layers of a message-passing network read at one index, on the extended reals.

  An edge layer adds to each gathered row its edge features times a weight and a bias, and clips at zero; a node
  layer adds two arrays, and passes the sum through two dense layers, each followed by the exponential linear
  unit; a readout passes pooled rows through a dense layer clipped at zero and a second dense layer.  Each is written
  twice below: over whole arrays in the host's spelling (`dot_general`, a one-row bias repeated over the rows, a
  comparison and a select), and over one block of rows in a kernel's spelling (a `matmul` into a zero accumulator, the
  bias row repeated by a vector broadcast, `exp` followed by a subtraction of one).  Read at row r and column c, the two
  spellings are the same expression of row r of the inputs, the weights and the bias rows.

  The exponential linear unit is x where x > 0 and exp x − 1 elsewhere.  The host computes the second branch as
  1 · expm1 of x with its positive entries replaced by zero; on the extended reals expm1 y is exp y − 1 and the
  word of 1.0 is the number one, so the two spellings agree at every x, the infinities included.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«104450_j5282809774138_1_alg».proof.Proof.LibRowOps
import proofs.«104450_j5282809774138_1_alg».proof.Proof.LibDense

noncomputable section

namespace Cert.GraphLayers

open Idealize.ShloMosaic Idealize.ShloMosaic.ValueIdx Cert.RowOps Cert.Dense

/-- The value of the f32 word of 1.0. -/
abbrev one : EReal := Ideal.ofBits .f32 0x3F800000#32

/-! ## The exponential linear unit -/

/-- x where x > 0, exp x − 1 elsewhere (the subtraction spelled with the word of 1.0). -/
def elu (a : EReal) : EReal := Scalar.select (Ideal.cmp .ogt a z) a (Ideal.exp a - one)

/-- The host's spelling: the second branch is 1 · expm1 of a with a positive a replaced by zero. -/
def eluHost (a : EReal) : EReal :=
  Scalar.select (Ideal.cmp .ogt a z) a (one * (Ideal.exp (Scalar.select (Ideal.cmp .ogt a z) z a) - 1))

theorem eluHost_eq (a : EReal) : eluHost a = elu a := by
  unfold eluHost elu
  rcases BitVec.eq_zero_or_eq_one (Ideal.cmp .ogt a z) with h | h
  · rw [h, select_zero, select_zero, select_zero]
    show Ideal.ofBits .f32 0x3F800000#32 * (Ideal.exp a - 1) = Ideal.exp a - Ideal.ofBits .f32 0x3F800000#32
    rw [Ideal.ofBits_one_f32, one_mul]
  · rw [h, select_one, select_one]

/-- The host's exponential linear unit of a whole array. -/
def eluArr {S : Shape} (h0 : (⟨0, ![]⟩ : Shape).BroadcastsInDim S ![]) (y : FVec Ideal S .f32) : FVec Ideal S .f32 :=
  select (cmpf .ogt y (broadcastInDim S ![] h0 (constant (F := Ideal) ⟨0, ![]⟩ .f32 0x00000000#32))) y
    (mulf (broadcastInDim S ![] h0 (constant (F := Ideal) ⟨0, ![]⟩ .f32 0x3F800000#32))
      (Host.expm1 (select (cmpf .ogt y (broadcastInDim S ![] h0 (constant (F := Ideal) ⟨0, ![]⟩ .f32 0x00000000#32)))
        (broadcastInDim S ![] h0 (id (constant (F := Ideal) ⟨0, ![]⟩ .f32 0x00000000#32))) y)))

theorem eluArr_apply {S : Shape} (h0 : (⟨0, ![]⟩ : Shape).BroadcastsInDim S ![]) (y : FVec Ideal S .f32) (i : S.Idx) :
    eluArr h0 y i = elu (y i) := by
  rw [← eluHost_eq]
  unfold eluArr eluHost
  rw [select_apply, cmpf_apply, mulf_apply, broadcastInDim_scalar_apply, broadcastInDim_scalar_apply]
  show Scalar.select _ (y i) (_ * FloatOps.hostUnary .expm1 (select _ _ y i)) = _
  rw [select_apply, cmpf_apply, broadcastInDim_scalar_apply, broadcastInDim_scalar_apply]
  rfl

/-- A kernel's exponential linear unit of one block: a comparison with a splat zero, `exp` minus a splat one. -/
theorem eluBlock_apply {S : Shape} (v : FVec Ideal S .f32) (i : S.Idx) :
    select (cmpf .ogt v (broadcast S (Scalar.ofBits (F := Ideal) .f32 0x00000000#32))) v
        (subf (exp v) (broadcast S (Scalar.ofBits (F := Ideal) .f32 0x3F800000#32))) i = elu (v i) := rfl

/-! ## A one-row bias repeated over the rows -/

section Row

variable {α : Type} {a b : Nat}

/-- The host's broadcast of a [1, b] array to [a, b] reads, at (p, c), the one row at c. -/
theorem hostRow_apply (v : (⟨2, ![1, b]⟩ : Shape).Idx → α)
    (h2 : (⟨2, ![1, b]⟩ : Shape).BroadcastsInDim ⟨2, ![a, b]⟩ ![0, 1]) (p : Fin a) (c : Fin b) :
    broadcastInDim ⟨2, ![a, b]⟩ ![0, 1] h2 v (ix2 p c) = v (ix2 (0 : Fin 1) c) :=
  broadcastInDim_apply ![0, 1] h2 v (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)

/-- A length-b vector viewed as one [1, b] row by the host's broadcast along the second axis reads, at (0, c), the vector at c. -/
theorem hostAsRow_apply (v : (⟨1, ![b]⟩ : Shape).Idx → α)
    (h1 : (⟨1, ![b]⟩ : Shape).BroadcastsInDim ⟨2, ![1, b]⟩ ![1]) (u : Fin 1) (c : Fin b) :
    broadcastInDim ⟨2, ![1, b]⟩ ![1] h1 v (ix2 u c) = v (ix1 c) :=
  broadcastInDim_apply ![1] h1 v (ix2 u c) (ix1 c) (fun ax => by
    match ax with
    | ⟨0, _⟩ =>
      show c.val = if b = 1 then 0 else c.val
      split
      · have := c.isLt; omega
      · rfl)

/-- The same vector reshaped to [1, b] reads, at (0, c), the vector at c. -/
theorem reshapeAsRow_apply (v : (⟨1, ![b]⟩ : Shape).Idx → α) (hs : (⟨1, ![b]⟩ : Shape).ShapeCasts ⟨2, ![1, b]⟩)
    (u : Fin 1) (c : Fin b) : shapeCast ⟨2, ![1, b]⟩ v hs (ix2 u c) = v (ix1 c) :=
  shapeCast_apply v hs _ _ (by
    have hu : u.val = 0 := by omega
    rw [Shape.rowMajor_val_one, Shape.rowMajor_val_two]
    show c.val = u.val * b + c.val
    rw [hu]; omega)

/-- So the reshape and the host's broadcast of a vector to one row are the same array. -/
theorem reshapeAsRow_eq (v : (⟨1, ![b]⟩ : Shape).Idx → α) (hs : (⟨1, ![b]⟩ : Shape).ShapeCasts ⟨2, ![1, b]⟩)
    (h1 : (⟨1, ![b]⟩ : Shape).BroadcastsInDim ⟨2, ![1, b]⟩ ![1]) :
    shapeCast ⟨2, ![1, b]⟩ v hs = broadcastInDim ⟨2, ![1, b]⟩ ![1] h1 v := by
  funext j
  obtain ⟨u, c, rfl⟩ : ∃ (u : Fin 1) (c : Fin b), j = ix2 u c := ⟨j 0, j 1, eq_ix2 j⟩
  rw [reshapeAsRow_apply, hostAsRow_apply]

end Row

/-! ## The layers over whole arrays (the host's spelling) -/

section Host

variable {M K H N : Nat}

/-- Gathered rows plus edge features times a weight plus a bias row, clipped at zero. -/
def edgeStage (d : DotDims ⟨2, ![M, K]⟩ ⟨2, ![K, N]⟩ ⟨2, ![M, N]⟩)
    (h2 : (⟨2, ![1, N]⟩ : Shape).BroadcastsInDim ⟨2, ![M, N]⟩ ![0, 1])
    (h0 : (⟨0, ![]⟩ : Shape).BroadcastsInDim ⟨2, ![M, N]⟩ ![])
    (xs : FVec Ideal ⟨2, ![M, N]⟩ .f32) (e : FVec Ideal ⟨2, ![M, K]⟩ .f32) (w : FVec Ideal ⟨2, ![K, N]⟩ .f32)
    (b : FVec Ideal ⟨2, ![1, N]⟩ .f32) : FVec Ideal ⟨2, ![M, N]⟩ .f32 :=
  maximumf (addf (addf xs (Host.dotGeneral d none e w)) (broadcastInDim ⟨2, ![M, N]⟩ ![0, 1] h2 b))
    (broadcastInDim ⟨2, ![M, N]⟩ ![] h0 (constant (F := Ideal) ⟨0, ![]⟩ .f32 0x00000000#32))

theorem edgeStage_apply {d : DotDims ⟨2, ![M, K]⟩ ⟨2, ![K, N]⟩ ⟨2, ![M, N]⟩} (hd : IsPlain d)
    (h2 : (⟨2, ![1, N]⟩ : Shape).BroadcastsInDim ⟨2, ![M, N]⟩ ![0, 1])
    (h0 : (⟨0, ![]⟩ : Shape).BroadcastsInDim ⟨2, ![M, N]⟩ ![])
    (xs : FVec Ideal ⟨2, ![M, N]⟩ .f32) (e : FVec Ideal ⟨2, ![M, K]⟩ .f32) (w : FVec Ideal ⟨2, ![K, N]⟩ .f32)
    (b : FVec Ideal ⟨2, ![1, N]⟩ .f32) (r : Fin M) (c : Fin N) :
    edgeStage d h2 h0 xs e w b (ix2 r c)
      = max ((xs (ix2 r c) + ∑ k : Fin K, e (ix2 r k) * w (ix2 k c)) + b (ix2 (0 : Fin 1) c)) z := by
  unfold edgeStage
  rw [maximumf_apply, addf_apply, addf_apply, hostRow_apply, broadcastInDim_scalar_apply, constant_apply]
  exact congrArg (fun s => max ((xs (ix2 r c) + s) + b (ix2 (0 : Fin 1) c)) z) (hostDot_apply hd none .single e w r c)

/-- The sum of two arrays through two dense layers, each followed by the exponential linear unit. -/
def nodeStage (d1 : DotDims ⟨2, ![M, K]⟩ ⟨2, ![K, H]⟩ ⟨2, ![M, H]⟩) (d2 : DotDims ⟨2, ![M, H]⟩ ⟨2, ![H, N]⟩ ⟨2, ![M, N]⟩)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (h0 : (⟨0, ![]⟩ : Shape).BroadcastsInDim ⟨2, ![M, N]⟩ ![])
    (x agg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  eluArr h0 (addf (Host.dotGeneral d2 none
      (eluArr g0 (addf (Host.dotGeneral d1 none (addf x agg) w1) (broadcastInDim ⟨2, ![M, H]⟩ ![0, 1] g2 b1))) w2)
    (broadcastInDim ⟨2, ![M, N]⟩ ![0, 1] h2 b2))

theorem nodeStage_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (h0 : (⟨0, ![]⟩ : Shape).BroadcastsInDim ⟨2, ![M, N]⟩ ![])
    (x agg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) :
    nodeStage d1 d2 g2 g0 h2 h0 x agg w1 b1 w2 b2 (ix2 r c)
      = elu ((∑ j : Fin H, elu ((∑ k : Fin K, (x (ix2 r k) + agg (ix2 r k)) * w1 (ix2 k j)) + b1 (ix2 (0 : Fin 1) j))
          * w2 (ix2 j c)) + b2 (ix2 (0 : Fin 1) c)) := by
  unfold nodeStage
  rw [eluArr_apply, addf_apply, hostRow_apply]
  refine congrArg (fun s => elu (s + b2 (ix2 (0 : Fin 1) c))) ?_
  refine (hostDot_apply hd2 none .single _ w2 r c).trans (Finset.sum_congr rfl fun j _ => ?_)
  rw [eluArr_apply, addf_apply, hostRow_apply]
  refine congrArg (fun s => elu (s + b1 (ix2 (0 : Fin 1) j)) * w2 (ix2 j c)) ?_
  exact (hostDot_apply hd1 none .single _ w1 r j).trans (Finset.sum_congr rfl fun k _ => by rw [addf_apply])

/-- Pooled rows through a dense layer clipped at zero and a second dense layer. -/
def readoutStage (d1 : DotDims ⟨2, ![M, K]⟩ ⟨2, ![K, H]⟩ ⟨2, ![M, H]⟩) (d2 : DotDims ⟨2, ![M, H]⟩ ⟨2, ![H, N]⟩ ⟨2, ![M, N]⟩)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (hg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  addf (Host.dotGeneral d2 none
      (maximumf (addf (Host.dotGeneral d1 none hg w1) (broadcastInDim ⟨2, ![M, H]⟩ ![0, 1] g2 b1))
        (broadcastInDim ⟨2, ![M, H]⟩ ![] g0 (constant (F := Ideal) ⟨0, ![]⟩ .f32 0x00000000#32))) w2)
    (broadcastInDim ⟨2, ![M, N]⟩ ![0, 1] h2 b2)

theorem readoutStage_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (hg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) :
    readoutStage d1 d2 g2 g0 h2 hg w1 b1 w2 b2 (ix2 r c)
      = (∑ j : Fin H, max ((∑ k : Fin K, hg (ix2 r k) * w1 (ix2 k j)) + b1 (ix2 (0 : Fin 1) j)) z * w2 (ix2 j c))
          + b2 (ix2 (0 : Fin 1) c) := by
  unfold readoutStage
  rw [addf_apply, hostRow_apply]
  refine congrArg (fun s => s + b2 (ix2 (0 : Fin 1) c)) ?_
  refine (hostDot_apply hd2 none .single _ w2 r c).trans (Finset.sum_congr rfl fun j _ => ?_)
  rw [maximumf_apply, addf_apply, hostRow_apply, broadcastInDim_scalar_apply, constant_apply]
  exact congrArg (fun s => max (s + b1 (ix2 (0 : Fin 1) j)) z * w2 (ix2 j c)) (hostDot_apply hd1 none .single hg w1 r j)

end Host

/-! ## The same layers over one block of rows (a kernel's spelling) -/

section Block

variable {M K H N : Nat}

/-- A [1, b] bias block repeated over the block's rows reads, at (p, c), the one row at c. -/
theorem blockRow_apply {α : Type} {a b : Nat} (v : (⟨2, ![1, b]⟩ : Shape).Idx → α)
    (hs : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hs) hb (ix2 p c) = v (ix2 (0 : Fin 1) c) := by
  rw [broadcastTo_1b_ab_apply, shapeCast_self]

/-- A matrix product of two blocks rounded to a narrower format on the way in, into a zero accumulator. -/
theorem blockDot_apply {d : DotDims ⟨2, ![M, K]⟩ ⟨2, ![K, N]⟩ ⟨2, ![M, N]⟩} (hd : IsPlain d)
    (x : FVec Ideal ⟨2, ![M, K]⟩ .f32) (w : FVec Ideal ⟨2, ![K, N]⟩ .f32) (lt : FTy.bf16.bits < FTy.f32.bits)
    (r : Fin M) (c : Fin N) :
    matmul d none (truncf .bf16 x lt) (truncf .bf16 w lt) (constant ⟨2, ![M, N]⟩ .f32 0x00000000#32) (ix2 r c)
      = ∑ k : Fin K, x (ix2 r k) * w (ix2 k c) :=
  matmul_zero_apply hd none (truncf .bf16 x lt) (truncf .bf16 w lt) r c

/-- The edge layer of one block. -/
theorem blockEdge_apply {d : DotDims ⟨2, ![M, K]⟩ ⟨2, ![K, N]⟩ ⟨2, ![M, N]⟩} (hd : IsPlain d)
    (x0 : FVec Ideal ⟨2, ![M, N]⟩ .f32) (x1 : FVec Ideal ⟨2, ![M, K]⟩ .f32) (x2 : FVec Ideal ⟨2, ![K, N]⟩ .f32)
    (x3 : FVec Ideal ⟨2, ![1, N]⟩ .f32)
    (c0 : (⟨2, ![M, N]⟩ : Shape).ShapeCasts ⟨2, ![M, N]⟩) (c1 : (⟨2, ![M, K]⟩ : Shape).ShapeCasts ⟨2, ![M, K]⟩)
    (c3 : (⟨2, ![1, N]⟩ : Shape).ShapeCasts ⟨2, ![1, N]⟩) (hb : (⟨2, ![1, N]⟩ : Shape).Broadcasts ⟨2, ![M, N]⟩)
    (lt : FTy.bf16.bits < FTy.f32.bits) (r : Fin M) (c : Fin N) :
    maximumf (addf (addf (shapeCast ⟨2, ![M, N]⟩ x0 c0)
          (matmul d none (truncf .bf16 (shapeCast ⟨2, ![M, K]⟩ x1 c1) lt) (truncf .bf16 x2 lt)
            (constant ⟨2, ![M, N]⟩ .f32 0x00000000#32)))
        (broadcastTo ⟨2, ![M, N]⟩ (shapeCast ⟨2, ![1, N]⟩ x3 c3) hb))
      (broadcast ⟨2, ![M, N]⟩ (Scalar.ofBits (F := Ideal) .f32 0x00000000#32)) (ix2 r c)
      = max ((x0 (ix2 r c) + ∑ k : Fin K, x1 (ix2 r k) * x2 (ix2 k c)) + x3 (ix2 (0 : Fin 1) c)) z := by
  rw [maximumf_apply, addf_apply, addf_apply, blockRow_apply, broadcast_apply, shapeCast_self, shapeCast_self]
  exact congrArg (fun s => max ((x0 (ix2 r c) + s) + x3 (ix2 (0 : Fin 1) c)) z) (blockDot_apply hd x1 x2 lt r c)

/-- The node layer of one block. -/
theorem blockNode_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (x0 x1 : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (c0 : (⟨2, ![M, K]⟩ : Shape).ShapeCasts ⟨2, ![M, K]⟩)
    (cb1 : (⟨2, ![1, H]⟩ : Shape).ShapeCasts ⟨2, ![1, H]⟩) (hb1 : (⟨2, ![1, H]⟩ : Shape).Broadcasts ⟨2, ![M, H]⟩)
    (cb2 : (⟨2, ![1, N]⟩ : Shape).ShapeCasts ⟨2, ![1, N]⟩) (hb2 : (⟨2, ![1, N]⟩ : Shape).Broadcasts ⟨2, ![M, N]⟩)
    (lt : FTy.bf16.bits < FTy.f32.bits) (r : Fin M) (c : Fin N) :
    (let v12 := addf (matmul d1 none (truncf .bf16 (addf (shapeCast ⟨2, ![M, K]⟩ x0 c0) (shapeCast ⟨2, ![M, K]⟩ x1 c0)) lt)
          (truncf .bf16 w1 lt) (constant ⟨2, ![M, H]⟩ .f32 0x00000000#32))
        (broadcastTo ⟨2, ![M, H]⟩ (shapeCast ⟨2, ![1, H]⟩ b1 cb1) hb1)
     let v18 := select (cmpf .ogt v12 (broadcast ⟨2, ![M, H]⟩ (Scalar.ofBits (F := Ideal) .f32 0x00000000#32))) v12
        (subf (exp v12) (broadcast ⟨2, ![M, H]⟩ (Scalar.ofBits (F := Ideal) .f32 0x3F800000#32)))
     let v26 := addf (matmul d2 none (truncf .bf16 v18 lt) (truncf .bf16 w2 lt) (constant ⟨2, ![M, N]⟩ .f32 0x00000000#32))
        (broadcastTo ⟨2, ![M, N]⟩ (shapeCast ⟨2, ![1, N]⟩ b2 cb2) hb2)
     select (cmpf .ogt v26 (broadcast ⟨2, ![M, N]⟩ (Scalar.ofBits (F := Ideal) .f32 0x00000000#32))) v26
        (subf (exp v26) (broadcast ⟨2, ![M, N]⟩ (Scalar.ofBits (F := Ideal) .f32 0x3F800000#32)))) (ix2 r c)
      = elu ((∑ j : Fin H, elu ((∑ k : Fin K, (x0 (ix2 r k) + x1 (ix2 r k)) * w1 (ix2 k j)) + b1 (ix2 (0 : Fin 1) j))
          * w2 (ix2 j c)) + b2 (ix2 (0 : Fin 1) c)) := by
  dsimp only
  rw [eluBlock_apply, addf_apply, blockRow_apply]
  refine congrArg (fun s => elu (s + b2 (ix2 (0 : Fin 1) c))) ?_
  refine (blockDot_apply hd2 _ w2 lt r c).trans (Finset.sum_congr rfl fun j _ => ?_)
  rw [eluBlock_apply, addf_apply, blockRow_apply]
  refine congrArg (fun s => elu (s + b1 (ix2 (0 : Fin 1) j)) * w2 (ix2 j c)) ?_
  refine (blockDot_apply hd1 _ w1 lt r j).trans (Finset.sum_congr rfl fun k _ => ?_)
  rw [addf_apply, shapeCast_self, shapeCast_self]

/-- The readout of one block. -/
theorem blockReadout_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (x0 : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (c0 : (⟨2, ![M, K]⟩ : Shape).ShapeCasts ⟨2, ![M, K]⟩)
    (cb1 : (⟨2, ![1, H]⟩ : Shape).ShapeCasts ⟨2, ![1, H]⟩) (hb1 : (⟨2, ![1, H]⟩ : Shape).Broadcasts ⟨2, ![M, H]⟩)
    (cb2 : (⟨2, ![1, N]⟩ : Shape).ShapeCasts ⟨2, ![1, N]⟩) (hb2 : (⟨2, ![1, N]⟩ : Shape).Broadcasts ⟨2, ![M, N]⟩)
    (lt : FTy.bf16.bits < FTy.f32.bits) (r : Fin M) (c : Fin N) :
    addf (matmul d2 none (truncf .bf16
          (maximumf (addf (matmul d1 none (truncf .bf16 (shapeCast ⟨2, ![M, K]⟩ x0 c0) lt) (truncf .bf16 w1 lt)
              (constant ⟨2, ![M, H]⟩ .f32 0x00000000#32))
            (broadcastTo ⟨2, ![M, H]⟩ (shapeCast ⟨2, ![1, H]⟩ b1 cb1) hb1))
          (broadcast ⟨2, ![M, H]⟩ (Scalar.ofBits (F := Ideal) .f32 0x00000000#32))) lt) (truncf .bf16 w2 lt)
        (constant ⟨2, ![M, N]⟩ .f32 0x00000000#32))
      (broadcastTo ⟨2, ![M, N]⟩ (shapeCast ⟨2, ![1, N]⟩ b2 cb2) hb2) (ix2 r c)
      = (∑ j : Fin H, max ((∑ k : Fin K, x0 (ix2 r k) * w1 (ix2 k j)) + b1 (ix2 (0 : Fin 1) j)) z * w2 (ix2 j c))
          + b2 (ix2 (0 : Fin 1) c) := by
  rw [addf_apply, blockRow_apply]
  refine congrArg (fun s => s + b2 (ix2 (0 : Fin 1) c)) ?_
  refine (blockDot_apply hd2 _ w2 lt r c).trans (Finset.sum_congr rfl fun j _ => ?_)
  rw [maximumf_apply, addf_apply, blockRow_apply, broadcast_apply]
  refine congrArg (fun s => max (s + b1 (ix2 (0 : Fin 1) j)) z * w2 (ix2 j c)) ?_
  refine (blockDot_apply hd1 _ w1 lt r j).trans (Finset.sum_congr rfl fun k _ => ?_)
  rw [shapeCast_self]

end Block

end Cert.GraphLayers

end
-- ==== Proof.Region0.lean ====
/-
  Region 0: the edge layer of the first convolution, over the whole edge array.

  The region walks the 1,600,000 edges in 100 blocks of 16,000 rows.  At block t it loads rows 16000·t … 16000·t + 15999
  of the gathered node rows and of the edge features, the whole 64 × 64 weight and the one bias row, and writes back
  that block of rows of the result.  Row r of the result depends only on row r of the two row arrays, so what block t
  writes back is block t of one function of the whole arrays: the gathered rows plus the edge features times the weight
  plus the bias row, clipped at zero.  The blocks tile the result (row r lies in block r / 16000), so the result array
  ends at that function; the four input arrays are never written back and end as the region found them.
-/
import proofs.«104450_j5282809774138_1_alg».proof.Proof.GenP.KernelIdeal.Frame
import proofs.«104450_j5282809774138_1_alg».proof.Proof.Gen.ReferenceIdeal
import proofs.«104450_j5282809774138_1_alg».proof.Proof.LibGraphLayers
import Idealize.ShloMosaic.Lib.Pipeline.Value

set_option maxRecDepth 16384

noncomputable section

namespace Cert.KernelIdeal.Region0

open Cert.KernelIdeal Cert.KernelIdeal.Gen Cert.KernelIdeal.GenP
open Idealize.ShloMosaic Idealize.ShloMosaic.TcCoe Idealize.SL.Sem Idealize.ShloMosaic.ValueIdx
open Cert.RowOps Cert.Dense Cert.GraphLayers
open Idealize.ShloMosaic.Pipeline (Dat)

/-- An index of a two-axis shape is a pair of coordinates. -/
theorem ex_ix2 {n0 n1 : Nat} (j : (⟨2, ![n0, n1]⟩ : Shape).Idx) : ∃ (p : Fin n0) (q : Fin n1), j = ix2 p q :=
  ⟨j 0, j 1, eq_ix2 j⟩

/-- The kernel's product is a plain [16000, 64] × [64, 64] one. -/
theorem plainK : IsPlain dot_S16000x64_S64x64_S16000x64_1_0_0_1_n_n := ⟨rfl, rfl, rfl, rfl, rfl, rfl⟩

/-- So is the whole-array product the layer is stated with. -/
theorem plainR : IsPlain Cert.ReferenceIdeal.dot_S1600000x64_S64x64_S1600000x64_1_0_0_1_n_n := ⟨rfl, rfl, rfl, rfl, rfl, rfl⟩

/-- The layer over the whole arrays: gathered rows, edge features, weight, bias row. -/
abbrev layer (xs : FVec Ideal ⟨2, ![1600000, 64]⟩ .f32) (e : FVec Ideal ⟨2, ![1600000, 64]⟩ .f32)
    (w : FVec Ideal ⟨2, ![64, 64]⟩ .f32) (b : FVec Ideal ⟨2, ![1, 64]⟩ .f32) : FVec Ideal ⟨2, ![1600000, 64]⟩ .f32 :=
  edgeStage Cert.ReferenceIdeal.dot_S1600000x64_S64x64_S1600000x64_1_0_0_1_n_n
    Cert.ReferenceIdeal.Facts₀.bcast_S1x64_S1600000x64_0_1 Cert.ReferenceIdeal.Facts₀.bcast_S_S1600000x64 xs e w b

/-- The body's arithmetic on one block, at row p and column q of the block. -/
theorem pay_apply (x0 x1 : Vec Ideal S16000x64 .f32) (x2 : Vec Ideal S64x64 .f32) (x3 : Vec Ideal S1x64 .f32)
    (p : Fin 16000) (q : Fin 64) :
    k0_pay1 x0 x1 x2 x3 (ix2 p q)
      = max ((x0 (ix2 p q) + ∑ k : Fin 64, x1 (ix2 p k) * x2 (ix2 k q)) + x3 (ix2 (0 : Fin 1) q)) z :=
  blockEdge_apply plainK x0 x1 x2 x3 Facts₀.shapeCasts_S16000x64_S16000x64 Facts₀.shapeCasts_S16000x64_S16000x64
    Facts₀.shapeCasts_S1x64_S1x64 Facts₀.broadcasts_S1x64_S16000x64 Facts₀.bitsLt_bf16_f32 p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the weight and the bias at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is row 16000·t + p of the array. -/
def row (t : Fin cfg0.N) (p : Fin 16000) : Fin 1600000 :=
  ⟨t.val * 16000 + p.val, by have h : t.val < 100 := lt_of_lt_of_eq t.isLt N_0
                             have := p.isLt; omega⟩

/-- The gathered rows' block at t reads the array at the block's rows. -/
theorem read0 (c : Dev nD) (t : Fin cfg0.N) (p : Fin 16000) (q : Fin 64) :
    iblk0 V c 0 t (ix2 p q) = V c main_v24 (ix2 (row t p) q) := by
  obtain ⟨e0, e1, -⟩ := idx_facts t
  show V c main_v24 (((cfg0.win 0).blk t).view.emb (ix2 p q)) = V c main_v24 (ix2 (row t p) q)
  refine congrArg (V c main_v24) (funext fun a => Fin.ext ?_)
  match a with
  | ⟨0, _⟩ => show win0_0.index t (0 : Fin 2) * 16000 + 1 * p.val = t.val * 16000 + p.val; rw [e0]; omega
  | ⟨1, _⟩ => show win0_0.index t (1 : Fin 2) * 64 + 1 * q.val = q.val; rw [e1]; omega

/-- The edge features' block at t reads the array at the block's rows. -/
theorem read1 (c : Dev nD) (t : Fin cfg0.N) (p : Fin 16000) (k : Fin 64) :
    iblk0 V c 1 t (ix2 p k) = V c main_v13 (ix2 (row t p) k) := by
  obtain ⟨-, -, e0, e1, -⟩ := idx_facts t
  show V c main_v13 (((cfg0.win 1).blk t).view.emb (ix2 p k)) = V c main_v13 (ix2 (row t p) k)
  refine congrArg (V c main_v13) (funext fun a => Fin.ext ?_)
  match a with
  | ⟨0, _⟩ => show win0_1.index t (0 : Fin 2) * 16000 + 1 * p.val = t.val * 16000 + p.val; rw [e0]; omega
  | ⟨1, _⟩ => show win0_1.index t (1 : Fin 2) * 64 + 1 * k.val = k.val; rw [e1]; omega

/-- The weight's block is the whole weight. -/
theorem read2 (c : Dev nD) (t : Fin cfg0.N) (k : Fin 64) (q : Fin 64) :
    iblk0 V c 2 t (ix2 k q) = V c main_arg6 (ix2 k q) := by
  obtain ⟨-, -, -, -, e0, e1, -⟩ := idx_facts t
  show V c main_arg6 (((cfg0.win 2).blk t).view.emb (ix2 k q)) = V c main_arg6 (ix2 k q)
  refine congrArg (V c main_arg6) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The bias block is the whole bias row. -/
theorem read3 (c : Dev nD) (t : Fin cfg0.N) (u : Fin 1) (q : Fin 64) :
    iblk0 V c 3 t (ix2 u q) = V c main_v25 (ix2 u q) := by
  obtain ⟨-, -, -, -, -, -, e0, e1, -⟩ := idx_facts t
  show V c main_v25 (((cfg0.win 3).blk t).view.emb (ix2 u q)) = V c main_v25 (ix2 u q)
  refine congrArg (V c main_v25) (funext fun a => Fin.ext ?_)
  match a with
  | ⟨0, _⟩ => show win0_3.index t (0 : Fin 2) * 1 + 1 * u.val = u.val; rw [e0]; omega
  | ⟨1, _⟩ => show win0_3.index t (1 : Fin 2) * 64 + 1 * q.val = q.val; rw [e1]; omega

/-- What point t writes back is block t of the layer of the arrays as the region finds them. -/
theorem flushed_eq (c : Dev nD) (t : Fin cfg0.N) :
    (dat0 V c).flushed 4 t = ((cfg0.win 4).blk t).view.read (Elt Ideal)
      (layer (V c main_v24) (V c main_v13) (V c main_arg6) (V c main_v25)) := by
  show (cfg0.win 4).cut (grid0.coords t) ((dat0 V c).after 4 t) = _
  rw [after0_4]
  unfold out0_4
  rw [View.canon_unit_zero hz]
  simp only [View.ld_unit_zero (S := S16000x64) hz, View.ld_unit_zero (S := S64x64) hz, View.ld_unit_zero (S := S1x64) hz]
  funext j
  obtain ⟨p, q, rfl⟩ := ex_ix2 (n0 := 16000) (n1 := 64) j
  obtain ⟨-, -, -, -, -, -, -, -, e0, e1⟩ := idx_facts t
  have hemb : ((cfg0.win 4).blk t).view.emb (ix2 p q) = ix2 (row t p) q := funext fun a => Fin.ext (by
    match a with
    | ⟨0, _⟩ => show win0_4.index t (0 : Fin 2) * 16000 + 1 * p.val = t.val * 16000 + p.val; rw [e0]; omega
    | ⟨1, _⟩ => show win0_4.index t (1 : Fin 2) * 64 + 1 * q.val = q.val; rw [e1]; omega)
  show k0_pay1 (iblk0 V c 0 t) (iblk0 V c 1 t) (iblk0 V c 2 t) (iblk0 V c 3 t) (ix2 p q)
    = layer (V c main_v24) (V c main_v13) (V c main_arg6) (V c main_v25) (((cfg0.win 4).blk t).view.emb (ix2 p q))
  rw [hemb]
  refine (pay_apply (iblk0 V c 0 t) (iblk0 V c 1 t) (iblk0 V c 2 t) (iblk0 V c 3 t) p q).trans ?_
  refine Eq.trans ?_ (edgeStage_apply plainR _ _ (V c main_v24) (V c main_v13) (V c main_arg6) (V c main_v25) (row t p) q).symm
  rw [read0, read3]
  simp only [read1, read2]

/-- An index of the array is in point t's block iff each coordinate is in the block's range on its axis. -/
theorem mem_blk (t : Fin cfg0.N) (i : S1600000x64.Idx) :
    i ∈ ((cfg0.win 4).blk t).view.set ↔ ∀ a : Fin 2, win0_4.index t a * S16000x64.size a ≤ (i a).val
      ∧ (i a).val < win0_4.index t a * S16000x64.size a + S16000x64.size a := by
  show i ∈ ((View.whole main_v26).slice (win0_4.rect t)).set ↔ _
  rw [View.set_slice_whole, Rect.mem_set_unit]
  exact Iff.rfl

/-- Every row lies in the block of its quotient by 16000. -/
theorem cover (i : S1600000x64.Idx) :
    ∃ t : Fin cfg0.N, (cfg0.win 4).flush t = true ∧ i ∈ ((cfg0.win 4).blk t).view.set := by
  have h0 : (i 0).val < 1600000 := (i 0).isLt
  have h1 : (i 1).val < 64 := (i 1).isLt
  have hN : cfg0.N = 100 := N_0
  let t : Fin cfg0.N := ⟨(i 0).val / 16000, lt_of_lt_of_eq (by omega : (i 0).val / 16000 < 100) hN.symm⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 16000 ≤ (i 0).val ∧ (i 0).val < win0_4.index t (0 : Fin 2) * 16000 + 16000
    rw [e0]; show (i 0).val / 16000 * 16000 ≤ (i 0).val ∧ (i 0).val < (i 0).val / 16000 * 16000 + 16000; omega
  | ⟨1, _⟩ =>
    show win0_4.index t (1 : Fin 2) * 64 ≤ (i 1).val ∧ (i 1).val < win0_4.index t (1 : Fin 2) * 64 + 64
    rw [e1]; omega

/-- The result array after the region: the layer of the arrays as the region finds them. -/
theorem final (c : Dev nD) :
    (dat0 V c).arrAt 4 cfg0.N = layer (V c main_v24) (V c main_v13) (V c main_arg6) (V c main_v25) :=
  (dat0 V c).arrAt_eq_of_cover 4 _ (fun t _ => flushed_eq V c t) cover

/-- The input arrays after the region are as it found them: an input window is never written back. -/
theorem kept (c : Dev nD) (w : Fin cfg0.W) (hw : w ≠ 4) : (dat0 V c).arrAt w cfg0.N = V c (Pipeline.arrRef spec0 w) := by
  match w, hw with
  | ⟨0, _⟩, _ => exact ((dat0 V c).arrAt_in 0 rfl _).trans (A_eq0 V c 0)
  | ⟨1, _⟩, _ => exact ((dat0 V c).arrAt_in 1 rfl _).trans (A_eq0 V c 1)
  | ⟨2, _⟩, _ => exact ((dat0 V c).arrAt_in 2 rfl _).trans (A_eq0 V c 2)
  | ⟨3, _⟩, _ => exact ((dat0 V c).arrAt_in 3 rfl _).trans (A_eq0 V c 3)
  | ⟨4, _⟩, h => exact absurd rfl h

end Cert.KernelIdeal.Region0

end
-- ==== Proof.Region1.lean ====
/-
  Region 1: the node layer of the first convolution, over the whole node array.

  The region walks the 100,000 nodes in 20 blocks of 5,000 rows.  At block t it loads rows 5000·t … 5000·t + 4999 of the
  node features and of the summed messages, the two weights and the two bias rows, and writes back that block of rows of
  the result.  Row r of the result depends only on row r of the two row arrays, so what block t writes back is block t
  of one function of the whole arrays: the sum of the two arrays through two dense layers, each followed by the
  exponential linear unit.  The blocks tile the result, so the result array ends at that function; the six input
  arrays are never written back and end as the region found them.
-/
import proofs.«104450_j5282809774138_1_alg».proof.Proof.GenP.KernelIdeal.Frame
import proofs.«104450_j5282809774138_1_alg».proof.Proof.Gen.ReferenceIdeal
import proofs.«104450_j5282809774138_1_alg».proof.Proof.LibGraphLayers
import Idealize.ShloMosaic.Lib.Pipeline.Value

set_option maxRecDepth 16384

noncomputable section

namespace Cert.KernelIdeal.Region1

open Cert.KernelIdeal Cert.KernelIdeal.Gen Cert.KernelIdeal.GenP
open Idealize.ShloMosaic Idealize.ShloMosaic.TcCoe Idealize.SL.Sem Idealize.ShloMosaic.ValueIdx
open Cert.RowOps Cert.Dense Cert.GraphLayers
open Idealize.ShloMosaic.Pipeline (Dat)

/-- An index of a two-axis shape is a pair of coordinates. -/
theorem ex_ix2 {n0 n1 : Nat} (j : (⟨2, ![n0, n1]⟩ : Shape).Idx) : ∃ (p : Fin n0) (q : Fin n1), j = ix2 p q :=
  ⟨j 0, j 1, eq_ix2 j⟩

/-- The kernel's two products are plain ones. -/
theorem plainK1 : IsPlain dot_S5000x64_S64x128_S5000x128_1_0_0_1_n_n := ⟨rfl, rfl, rfl, rfl, rfl, rfl⟩
theorem plainK2 : IsPlain dot_S5000x128_S128x128_S5000x128_1_0_0_1_n_n := ⟨rfl, rfl, rfl, rfl, rfl, rfl⟩

/-- So are the whole-array products the layer is stated with. -/
theorem plainR1 : IsPlain Cert.ReferenceIdeal.dot_S100000x64_S64x128_S100000x128_1_0_0_1_n_n := ⟨rfl, rfl, rfl, rfl, rfl, rfl⟩
theorem plainR2 : IsPlain Cert.ReferenceIdeal.dot_S100000x128_S128x128_S100000x128_1_0_0_1_n_n := ⟨rfl, rfl, rfl, rfl, rfl, rfl⟩

/-- The layer over the whole arrays. -/
abbrev layer (x agg : FVec Ideal ⟨2, ![100000, 64]⟩ .f32) (w1 : FVec Ideal ⟨2, ![64, 128]⟩ .f32) (b1 : FVec Ideal ⟨2, ![1, 128]⟩ .f32)
    (w2 : FVec Ideal ⟨2, ![128, 128]⟩ .f32) (b2 : FVec Ideal ⟨2, ![1, 128]⟩ .f32) : FVec Ideal ⟨2, ![100000, 128]⟩ .f32 :=
  nodeStage Cert.ReferenceIdeal.dot_S100000x64_S64x128_S100000x128_1_0_0_1_n_n Cert.ReferenceIdeal.dot_S100000x128_S128x128_S100000x128_1_0_0_1_n_n
    Cert.ReferenceIdeal.Facts₀.bcast_S1x128_S100000x128_0_1 Cert.ReferenceIdeal.Facts₀.bcast_S_S100000x128 Cert.ReferenceIdeal.Facts₀.bcast_S1x128_S100000x128_0_1 Cert.ReferenceIdeal.Facts₀.bcast_S_S100000x128
    x agg w1 b1 w2 b2

/-- The body's arithmetic on one block, at row p and column q of the block. -/
theorem pay_apply (x0 x1 : Vec Ideal S5000x64 .f32) (x2 : Vec Ideal S64x128 .f32) (x3 : Vec Ideal S1x128 .f32)
    (x4 : Vec Ideal S128x128 .f32) (x5 : Vec Ideal S1x128 .f32) (p : Fin 5000) (q : Fin 128) :
    k1_pay1 x0 x1 x2 x3 x4 x5 (ix2 p q)
      = elu ((∑ j : Fin 128, elu ((∑ k : Fin 64, (x0 (ix2 p k) + x1 (ix2 p k)) * x2 (ix2 k j)) + x3 (ix2 (0 : Fin 1) j))
          * x4 (ix2 j q)) + x5 (ix2 (0 : Fin 1) q)) :=
  blockNode_apply plainK1 plainK2 x0 x1 x2 x3 x4 x5 Cert.KernelIdeal.Facts₀.shapeCasts_S5000x64_S5000x64
    Cert.KernelIdeal.Facts₀.shapeCasts_S1x128_S1x128 Cert.KernelIdeal.Facts₀.broadcasts_S1x128_S5000x128 Cert.KernelIdeal.Facts₀.shapeCasts_S1x128_S1x128 Cert.KernelIdeal.Facts₀.broadcasts_S1x128_S5000x128
    Cert.KernelIdeal.Facts₀.bitsLt_bf16_f32 p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block (t, 0), a weight or a bias row at (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Row p of block t is row 5000·t + p of the array. -/
def row (t : Fin cfg1.N) (p : Fin 5000) : Fin 100000 :=
  ⟨t.val * 5000 + p.val, by
    have h : t.val < 20 := lt_of_lt_of_eq t.isLt N_1
    have := p.isLt
    omega⟩

/-- Window 0's block at point t reads its array at the block's rows. -/
theorem read0 (c : Dev nD) (t : Fin cfg1.N) (p : Fin 5000) (q : Fin 64) :
    iblk1 V c 0 t (ix2 p q) = V c main_v6 (ix2 (row t p) q) := by
  obtain ⟨e0, e1, -, -, -, -, -, -, -, -, -, -, -, -⟩ := idx_facts t
  show V c main_v6 (((cfg1.win 0).blk t).view.emb (ix2 p q)) = V c main_v6 (ix2 (row t p) q)
  refine congrArg (V c main_v6) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * q.val = q.val; rw [e1]; omega

/-- Window 1's block at point t reads its array at the block's rows. -/
theorem read1 (c : Dev nD) (t : Fin cfg1.N) (p : Fin 5000) (q : Fin 64) :
    iblk1 V c 1 t (ix2 p q) = V c main_v29 (ix2 (row t p) q) := by
  obtain ⟨-, -, e0, e1, -, -, -, -, -, -, -, -, -, -⟩ := idx_facts t
  show V c main_v29 (((cfg1.win 1).blk t).view.emb (ix2 p q)) = V c main_v29 (ix2 (row t p) q)
  refine congrArg (V c main_v29) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 64 + 1 * q.val = q.val; rw [e1]; omega

/-- Window 2's block at point t reads its array whole. -/
theorem read2 (c : Dev nD) (t : Fin cfg1.N) (p : Fin 64) (q : Fin 128) :
    iblk1 V c 2 t (ix2 p q) = V c main_arg8 (ix2 p q) := by
  obtain ⟨-, -, -, -, e0, e1, -, -, -, -, -, -, -, -⟩ := idx_facts t
  show V c main_arg8 (((cfg1.win 2).blk t).view.emb (ix2 p q)) = V c main_arg8 (ix2 p q)
  refine congrArg (V c main_arg8) (funext fun a => Fin.ext ?_)
  match a with
  | ⟨0, _⟩ => show win1_2.index t (0 : Fin 2) * 64 + 1 * p.val = p.val; rw [e0]; omega
  | ⟨1, _⟩ => show win1_2.index t (1 : Fin 2) * 128 + 1 * q.val = q.val; rw [e1]; omega

/-- Window 3's block at point t reads its array whole. -/
theorem read3 (c : Dev nD) (t : Fin cfg1.N) (p : Fin 1) (q : Fin 128) :
    iblk1 V c 3 t (ix2 p q) = V c main_v30 (ix2 p q) := by
  obtain ⟨-, -, -, -, -, -, e0, e1, -, -, -, -, -, -⟩ := idx_facts t
  show V c main_v30 (((cfg1.win 3).blk t).view.emb (ix2 p q)) = V c main_v30 (ix2 p q)
  refine congrArg (V c main_v30) (funext fun a => Fin.ext ?_)
  match a with
  | ⟨0, _⟩ => show win1_3.index t (0 : Fin 2) * 1 + 1 * p.val = p.val; rw [e0]; omega
  | ⟨1, _⟩ => show win1_3.index t (1 : Fin 2) * 128 + 1 * q.val = q.val; rw [e1]; omega

/-- Window 4's block at point t reads its array whole. -/
theorem read4 (c : Dev nD) (t : Fin cfg1.N) (p : Fin 128) (q : Fin 128) :
    iblk1 V c 4 t (ix2 p q) = V c main_arg10 (ix2 p q) := by
  obtain ⟨-, -, -, -, -, -, -, -, e0, e1, -, -, -, -⟩ := idx_facts t
  show V c main_arg10 (((cfg1.win 4).blk t).view.emb (ix2 p q)) = V c main_arg10 (ix2 p q)
  refine congrArg (V c main_arg10) (funext fun a => Fin.ext ?_)
  match a with
  | ⟨0, _⟩ => show win1_4.index t (0 : Fin 2) * 128 + 1 * p.val = p.val; rw [e0]; omega
  | ⟨1, _⟩ => show win1_4.index t (1 : Fin 2) * 128 + 1 * q.val = q.val; rw [e1]; omega

/-- Window 5's block at point t reads its array whole. -/
theorem read5 (c : Dev nD) (t : Fin cfg1.N) (p : Fin 1) (q : Fin 128) :
    iblk1 V c 5 t (ix2 p q) = V c main_v31 (ix2 p q) := by
  obtain ⟨-, -, -, -, -, -, -, -, -, -, e0, e1, -, -⟩ := idx_facts t
  show V c main_v31 (((cfg1.win 5).blk t).view.emb (ix2 p q)) = V c main_v31 (ix2 p q)
  refine congrArg (V c main_v31) (funext fun a => Fin.ext ?_)
  match a with
  | ⟨0, _⟩ => show win1_5.index t (0 : Fin 2) * 1 + 1 * p.val = p.val; rw [e0]; omega
  | ⟨1, _⟩ => show win1_5.index t (1 : Fin 2) * 128 + 1 * q.val = q.val; rw [e1]; omega

/-- What point t writes back is block t of the layer of the arrays as the region finds them. -/
theorem flushed_eq (c : Dev nD) (t : Fin cfg1.N) :
    (dat1 V c).flushed 6 t = ((cfg1.win 6).blk t).view.read (Elt Ideal) (layer (V c main_v6) (V c main_v29) (V c main_arg8) (V c main_v30) (V c main_arg10) (V c main_v31)) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x128) hz, View.ld_unit_zero (S := S1x128) hz, View.ld_unit_zero (S := S128x128) hz]
  funext j
  obtain ⟨p, q, rfl⟩ := ex_ix2 (n0 := 5000) (n1 := 128) j
  obtain ⟨-, -, -, -, -, -, -, -, -, -, -, -, e0, e1⟩ := idx_facts t
  have hemb : ((cfg1.win 6).blk t).view.emb (ix2 p q) = ix2 (row t p) q := funext fun a => Fin.ext (by
    match a with
    | ⟨0, _⟩ => show win1_6.index t (0 : Fin 2) * 5000 + 1 * p.val = t.val * 5000 + p.val; rw [e0]; omega
    | ⟨1, _⟩ => show win1_6.index t (1 : Fin 2) * 128 + 1 * q.val = q.val; rw [e1]; omega)
  show k1_pay1 (iblk1 V c 0 t) (iblk1 V c 1 t) (iblk1 V c 2 t) (iblk1 V c 3 t) (iblk1 V c 4 t) (iblk1 V c 5 t) (ix2 p q)
    = layer (V c main_v6) (V c main_v29) (V c main_arg8) (V c main_v30) (V c main_arg10) (V c main_v31) (((cfg1.win 6).blk t).view.emb (ix2 p q))
  rw [hemb]
  refine (pay_apply (iblk1 V c 0 t) (iblk1 V c 1 t) (iblk1 V c 2 t) (iblk1 V c 3 t) (iblk1 V c 4 t) (iblk1 V c 5 t) p q).trans ?_
  refine Eq.trans ?_ (nodeStage_apply plainR1 plainR2 _ _ _ _ (V c main_v6) (V c main_v29) (V c main_arg8) (V c main_v30) (V c main_arg10) (V c main_v31) (row t p) q).symm
  simp only [read0, read1, read2, read3, read4, read5]

/-- An index of the array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v32).slice (win1_6.rect t)).set ↔ _
  rw [View.set_slice_whole, Rect.mem_set_unit]
  exact Iff.rfl

/-- Every row lies in the block of its quotient by 5000. -/
theorem cover (i : S100000x128.Idx) :
    ∃ t : Fin cfg1.N, (cfg1.win 6).flush t = true ∧ i ∈ ((cfg1.win 6).blk t).view.set := by
  have h0 : (i 0).val < 100000 := (i 0).isLt
  have h1 : (i 1).val < 128 := (i 1).isLt
  have hN : cfg1.N = 20 := N_1
  let t : Fin cfg1.N := ⟨(i 0).val / 5000, lt_of_lt_of_eq (by omega : (i 0).val / 5000 < 20) hN.symm⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0]; show (i 0).val / 5000 * 5000 ≤ (i 0).val ∧ (i 0).val < (i 0).val / 5000 * 5000 + 5000; omega
  | ⟨1, _⟩ =>
    show win1_6.index t (1 : Fin 2) * 128 ≤ (i 1).val ∧ (i 1).val < win1_6.index t (1 : Fin 2) * 128 + 128
    rw [e1]; omega

/-- The result array after the region: the layer of the arrays as the region finds them. -/
theorem final (c : Dev nD) :
    (dat1 V c).arrAt 6 cfg1.N = layer (V c main_v6) (V c main_v29) (V c main_arg8) (V c main_v30) (V c main_arg10) (V c main_v31) :=
  (dat1 V c).arrAt_eq_of_cover 6 _ (fun t _ => flushed_eq V c t) cover

/-- The input arrays after the region are as it found them: an input window is never written back. -/
theorem kept (c : Dev nD) (w : Fin cfg1.W) (hw : w ≠ 6) : (dat1 V c).arrAt w cfg1.N = V c (Pipeline.arrRef spec1 w) := by
  match w, hw with
  | ⟨0, _⟩, _ => exact ((dat1 V c).arrAt_in 0 rfl _).trans (A_eq1 V c 0)
  | ⟨1, _⟩, _ => exact ((dat1 V c).arrAt_in 1 rfl _).trans (A_eq1 V c 1)
  | ⟨2, _⟩, _ => exact ((dat1 V c).arrAt_in 2 rfl _).trans (A_eq1 V c 2)
  | ⟨3, _⟩, _ => exact ((dat1 V c).arrAt_in 3 rfl _).trans (A_eq1 V c 3)
  | ⟨4, _⟩, _ => exact ((dat1 V c).arrAt_in 4 rfl _).trans (A_eq1 V c 4)
  | ⟨5, _⟩, _ => exact ((dat1 V c).arrAt_in 5 rfl _).trans (A_eq1 V c 5)
  | ⟨6, _⟩, h => exact absurd rfl h

end Cert.KernelIdeal.Region1

end
-- ==== Proof.Region2.lean ====
/-
  Region 2: the edge layer of the second convolution, over the whole edge array.

  The region walks the 1,600,000 edges in 200 blocks of 8,000 rows.  At block t it loads rows 8000·t … 8000·t + 7999 of the
  gathered 128-wide node rows and of the 64-wide edge features, the whole 64 × 128 weight and the one bias row, and
  writes back that block of rows of the result.  Row r of the result depends only on row r of the two row arrays, so
  what block t writes back is block t of one function of the whole arrays: the gathered rows plus the edge features
  times the weight plus the bias row, clipped at zero.  The blocks tile the result, so the result array ends at that
  function; the four input arrays are never written back and end as the region found them.
-/
import proofs.«104450_j5282809774138_1_alg».proof.Proof.GenP.KernelIdeal.Frame
import proofs.«104450_j5282809774138_1_alg».proof.Proof.Gen.ReferenceIdeal
import proofs.«104450_j5282809774138_1_alg».proof.Proof.LibGraphLayers
import Idealize.ShloMosaic.Lib.Pipeline.Value

set_option maxRecDepth 16384

noncomputable section

namespace Cert.KernelIdeal.Region2

open Cert.KernelIdeal Cert.KernelIdeal.Gen Cert.KernelIdeal.GenP
open Idealize.ShloMosaic Idealize.ShloMosaic.TcCoe Idealize.SL.Sem Idealize.ShloMosaic.ValueIdx
open Cert.RowOps Cert.Dense Cert.GraphLayers
open Idealize.ShloMosaic.Pipeline (Dat)

/-- An index of a two-axis shape is a pair of coordinates. -/
theorem ex_ix2 {n0 n1 : Nat} (j : (⟨2, ![n0, n1]⟩ : Shape).Idx) : ∃ (p : Fin n0) (q : Fin n1), j = ix2 p q :=
  ⟨j 0, j 1, eq_ix2 j⟩

/-- The kernel's product is a plain [8000, 64] × [64, 128] one. -/
theorem plainK : IsPlain dot_S8000x64_S64x128_S8000x128_1_0_0_1_n_n := ⟨rfl, rfl, rfl, rfl, rfl, rfl⟩

/-- So is the whole-array product the layer is stated with. -/
theorem plainR : IsPlain Cert.ReferenceIdeal.dot_S1600000x64_S64x128_S1600000x128_1_0_0_1_n_n := ⟨rfl, rfl, rfl, rfl, rfl, rfl⟩

/-- The layer over the whole arrays. -/
abbrev layer (xs : FVec Ideal ⟨2, ![1600000, 128]⟩ .f32) (e : FVec Ideal ⟨2, ![1600000, 64]⟩ .f32)
    (w : FVec Ideal ⟨2, ![64, 128]⟩ .f32) (b : FVec Ideal ⟨2, ![1, 128]⟩ .f32) : FVec Ideal ⟨2, ![1600000, 128]⟩ .f32 :=
  edgeStage Cert.ReferenceIdeal.dot_S1600000x64_S64x128_S1600000x128_1_0_0_1_n_n
    Cert.ReferenceIdeal.Facts₀.bcast_S1x128_S1600000x128_0_1 Cert.ReferenceIdeal.Facts₀.bcast_S_S1600000x128 xs e w b

/-- The body's arithmetic on one block, at row p and column q of the block. -/
theorem pay_apply (x0 : Vec Ideal S8000x128 .f32) (x1 : Vec Ideal S8000x64 .f32) (x2 : Vec Ideal S64x128 .f32) (x3 : Vec Ideal S1x128 .f32)
    (p : Fin 8000) (q : Fin 128) :
    k2_pay1 x0 x1 x2 x3 (ix2 p q)
      = max ((x0 (ix2 p q) + ∑ k : Fin 64, x1 (ix2 p k) * x2 (ix2 k q)) + x3 (ix2 (0 : Fin 1) q)) z :=
  blockEdge_apply plainK x0 x1 x2 x3 Cert.KernelIdeal.Facts₀.shapeCasts_S8000x128_S8000x128 Cert.KernelIdeal.Facts₀.shapeCasts_S8000x64_S8000x64
    Cert.KernelIdeal.Facts₀.shapeCasts_S1x128_S1x128 Cert.KernelIdeal.Facts₀.broadcasts_S1x128_S8000x128 Cert.KernelIdeal.Facts₀.bitsLt_bf16_f32 p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block (t, 0), a weight or a bias row at (0, 0). -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-- Row p of block t is row 8000·t + p of the array. -/
def row (t : Fin cfg2.N) (p : Fin 8000) : Fin 1600000 :=
  ⟨t.val * 8000 + p.val, by
    have h : t.val < 200 := lt_of_lt_of_eq t.isLt N_2
    have := p.isLt
    omega⟩

/-- Window 0's block at point t reads its array at the block's rows. -/
theorem read0 (c : Dev nD) (t : Fin cfg2.N) (p : Fin 8000) (q : Fin 128) :
    iblk2 V c 0 t (ix2 p q) = V c main_v39 (ix2 (row t p) q) := by
  obtain ⟨e0, e1, -, -, -, -, -, -, -, -⟩ := idx_facts t
  show V c main_v39 (((cfg2.win 0).blk t).view.emb (ix2 p q)) = V c main_v39 (ix2 (row t p) q)
  refine congrArg (V c main_v39) (funext fun a => Fin.ext ?_)
  match a with
  | ⟨0, _⟩ => show win2_0.index t (0 : Fin 2) * 8000 + 1 * p.val = t.val * 8000 + p.val; rw [e0]; omega
  | ⟨1, _⟩ => show win2_0.index t (1 : Fin 2) * 128 + 1 * q.val = q.val; rw [e1]; omega

/-- Window 1's block at point t reads its array at the block's rows. -/
theorem read1 (c : Dev nD) (t : Fin cfg2.N) (p : Fin 8000) (q : Fin 64) :
    iblk2 V c 1 t (ix2 p q) = V c main_v13 (ix2 (row t p) q) := by
  obtain ⟨-, -, e0, e1, -, -, -, -, -, -⟩ := idx_facts t
  show V c main_v13 (((cfg2.win 1).blk t).view.emb (ix2 p q)) = V c main_v13 (ix2 (row t p) q)
  refine congrArg (V c main_v13) (funext fun a => Fin.ext ?_)
  match a with
  | ⟨0, _⟩ => show win2_1.index t (0 : Fin 2) * 8000 + 1 * p.val = t.val * 8000 + p.val; rw [e0]; omega
  | ⟨1, _⟩ => show win2_1.index t (1 : Fin 2) * 64 + 1 * q.val = q.val; rw [e1]; omega

/-- Window 2's block at point t reads its array whole. -/
theorem read2 (c : Dev nD) (t : Fin cfg2.N) (p : Fin 64) (q : Fin 128) :
    iblk2 V c 2 t (ix2 p q) = V c main_arg12 (ix2 p q) := by
  obtain ⟨-, -, -, -, e0, e1, -, -, -, -⟩ := idx_facts t
  show V c main_arg12 (((cfg2.win 2).blk t).view.emb (ix2 p q)) = V c main_arg12 (ix2 p q)
  refine congrArg (V c main_arg12) (funext fun a => Fin.ext ?_)
  match a with
  | ⟨0, _⟩ => show win2_2.index t (0 : Fin 2) * 64 + 1 * p.val = p.val; rw [e0]; omega
  | ⟨1, _⟩ => show win2_2.index t (1 : Fin 2) * 128 + 1 * q.val = q.val; rw [e1]; omega

/-- Window 3's block at point t reads its array whole. -/
theorem read3 (c : Dev nD) (t : Fin cfg2.N) (p : Fin 1) (q : Fin 128) :
    iblk2 V c 3 t (ix2 p q) = V c main_v40 (ix2 p q) := by
  obtain ⟨-, -, -, -, -, -, e0, e1, -, -⟩ := idx_facts t
  show V c main_v40 (((cfg2.win 3).blk t).view.emb (ix2 p q)) = V c main_v40 (ix2 p q)
  refine congrArg (V c main_v40) (funext fun a => Fin.ext ?_)
  match a with
  | ⟨0, _⟩ => show win2_3.index t (0 : Fin 2) * 1 + 1 * p.val = p.val; rw [e0]; omega
  | ⟨1, _⟩ => show win2_3.index t (1 : Fin 2) * 128 + 1 * q.val = q.val; rw [e1]; omega

/-- What point t writes back is block t of the layer of the arrays as the region finds them. -/
theorem flushed_eq (c : Dev nD) (t : Fin cfg2.N) :
    (dat2 V c).flushed 4 t = ((cfg2.win 4).blk t).view.read (Elt Ideal) (layer (V c main_v39) (V c main_v13) (V c main_arg12) (V c main_v40)) := by
  show (cfg2.win 4).cut (grid2.coords t) ((dat2 V c).after 4 t) = _
  rw [after2_4]
  unfold out2_4
  rw [View.canon_unit_zero hz]
  simp only [View.ld_unit_zero (S := S8000x128) hz, View.ld_unit_zero (S := S8000x64) hz, View.ld_unit_zero (S := S64x128) hz, View.ld_unit_zero (S := S1x128) hz]
  funext j
  obtain ⟨p, q, rfl⟩ := ex_ix2 (n0 := 8000) (n1 := 128) j
  obtain ⟨-, -, -, -, -, -, -, -, e0, e1⟩ := idx_facts t
  have hemb : ((cfg2.win 4).blk t).view.emb (ix2 p q) = ix2 (row t p) q := funext fun a => Fin.ext (by
    match a with
    | ⟨0, _⟩ => show win2_4.index t (0 : Fin 2) * 8000 + 1 * p.val = t.val * 8000 + p.val; rw [e0]; omega
    | ⟨1, _⟩ => show win2_4.index t (1 : Fin 2) * 128 + 1 * q.val = q.val; rw [e1]; omega)
  show k2_pay1 (iblk2 V c 0 t) (iblk2 V c 1 t) (iblk2 V c 2 t) (iblk2 V c 3 t) (ix2 p q)
    = layer (V c main_v39) (V c main_v13) (V c main_arg12) (V c main_v40) (((cfg2.win 4).blk t).view.emb (ix2 p q))
  rw [hemb]
  refine (pay_apply (iblk2 V c 0 t) (iblk2 V c 1 t) (iblk2 V c 2 t) (iblk2 V c 3 t) p q).trans ?_
  refine Eq.trans ?_ (edgeStage_apply plainR _ _ (V c main_v39) (V c main_v13) (V c main_arg12) (V c main_v40) (row t p) q).symm
  simp only [read0, read1, read2, read3]

/-- An index of the array is in point t's block iff each coordinate is in the block's range on its axis. -/
theorem mem_blk (t : Fin cfg2.N) (i : S1600000x128.Idx) :
    i ∈ ((cfg2.win 4).blk t).view.set ↔ ∀ a : Fin 2, win2_4.index t a * S8000x128.size a ≤ (i a).val
      ∧ (i a).val < win2_4.index t a * S8000x128.size a + S8000x128.size a := by
  show i ∈ ((View.whole main_v41).slice (win2_4.rect t)).set ↔ _
  rw [View.set_slice_whole, Rect.mem_set_unit]
  exact Iff.rfl

/-- Every row lies in the block of its quotient by 8000. -/
theorem cover (i : S1600000x128.Idx) :
    ∃ t : Fin cfg2.N, (cfg2.win 4).flush t = true ∧ i ∈ ((cfg2.win 4).blk t).view.set := by
  have h0 : (i 0).val < 1600000 := (i 0).isLt
  have h1 : (i 1).val < 128 := (i 1).isLt
  have hN : cfg2.N = 200 := N_2
  let t : Fin cfg2.N := ⟨(i 0).val / 8000, lt_of_lt_of_eq (by omega : (i 0).val / 8000 < 200) hN.symm⟩
  obtain ⟨-, -, -, -, -, -, -, -, e0, e1⟩ := idx_facts t
  refine ⟨t, flush2_4 t, ?_⟩
  rw [mem_blk]
  intro a
  match a with
  | ⟨0, _⟩ =>
    show win2_4.index t (0 : Fin 2) * 8000 ≤ (i 0).val ∧ (i 0).val < win2_4.index t (0 : Fin 2) * 8000 + 8000
    rw [e0]; show (i 0).val / 8000 * 8000 ≤ (i 0).val ∧ (i 0).val < (i 0).val / 8000 * 8000 + 8000; omega
  | ⟨1, _⟩ =>
    show win2_4.index t (1 : Fin 2) * 128 ≤ (i 1).val ∧ (i 1).val < win2_4.index t (1 : Fin 2) * 128 + 128
    rw [e1]; omega

/-- The result array after the region: the layer of the arrays as the region finds them. -/
theorem final (c : Dev nD) :
    (dat2 V c).arrAt 4 cfg2.N = layer (V c main_v39) (V c main_v13) (V c main_arg12) (V c main_v40) :=
  (dat2 V c).arrAt_eq_of_cover 4 _ (fun t _ => flushed_eq V c t) cover

/-- The input arrays after the region are as it found them: an input window is never written back. -/
theorem kept (c : Dev nD) (w : Fin cfg2.W) (hw : w ≠ 4) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, _ => exact ((dat2 V c).arrAt_in 3 rfl _).trans (A_eq2 V c 3)
  | ⟨4, _⟩, h => exact absurd rfl h

end Cert.KernelIdeal.Region2

end
-- ==== Proof.Region3.lean ====
/-
  Region 3: the node layer of the second convolution, over the whole node array.

  The region walks the 100,000 nodes in 20 blocks of 5,000 rows.  At block t it loads rows 5000·t … 5000·t + 4999 of the
  first convolution's node features and of the summed messages, the two 128 × 128 weights and the two bias rows, and
  writes back that block of rows of the result.  Row r of the result depends only on row r of the two row arrays, so
  what block t writes back is block t of one function of the whole arrays: the sum of the two arrays through two dense
  layers, each followed by the exponential linear unit.  The blocks tile the result, so the result array ends at that
  function; the six input arrays are never written back and end as the region found them.
-/
import proofs.«104450_j5282809774138_1_alg».proof.Proof.GenP.KernelIdeal.Frame
import proofs.«104450_j5282809774138_1_alg».proof.Proof.Gen.ReferenceIdeal
import proofs.«104450_j5282809774138_1_alg».proof.Proof.LibGraphLayers
import Idealize.ShloMosaic.Lib.Pipeline.Value

set_option maxRecDepth 16384

noncomputable section

namespace Cert.KernelIdeal.Region3

open Cert.KernelIdeal Cert.KernelIdeal.Gen Cert.KernelIdeal.GenP
open Idealize.ShloMosaic Idealize.ShloMosaic.TcCoe Idealize.SL.Sem Idealize.ShloMosaic.ValueIdx
open Cert.RowOps Cert.Dense Cert.GraphLayers
open Idealize.ShloMosaic.Pipeline (Dat)

/-- An index of a two-axis shape is a pair of coordinates. -/
theorem ex_ix2 {n0 n1 : Nat} (j : (⟨2, ![n0, n1]⟩ : Shape).Idx) : ∃ (p : Fin n0) (q : Fin n1), j = ix2 p q :=
  ⟨j 0, j 1, eq_ix2 j⟩

/-- The kernel's two products are plain ones. -/
theorem plainK1 : IsPlain dot_S5000x128_S128x128_S5000x128_1_0_0_1_n_n := ⟨rfl, rfl, rfl, rfl, rfl, rfl⟩
theorem plainK2 : IsPlain dot_S5000x128_S128x128_S5000x128_1_0_0_1_n_n := ⟨rfl, rfl, rfl, rfl, rfl, rfl⟩

/-- So are the whole-array products the layer is stated with. -/
theorem plainR1 : IsPlain Cert.ReferenceIdeal.dot_S100000x128_S128x128_S100000x128_1_0_0_1_n_n := ⟨rfl, rfl, rfl, rfl, rfl, rfl⟩
theorem plainR2 : IsPlain Cert.ReferenceIdeal.dot_S100000x128_S128x128_S100000x128_1_0_0_1_n_n := ⟨rfl, rfl, rfl, rfl, rfl, rfl⟩

/-- The layer over the whole arrays. -/
abbrev layer (x agg : FVec Ideal ⟨2, ![100000, 128]⟩ .f32) (w1 : FVec Ideal ⟨2, ![128, 128]⟩ .f32) (b1 : FVec Ideal ⟨2, ![1, 128]⟩ .f32)
    (w2 : FVec Ideal ⟨2, ![128, 128]⟩ .f32) (b2 : FVec Ideal ⟨2, ![1, 128]⟩ .f32) : FVec Ideal ⟨2, ![100000, 128]⟩ .f32 :=
  nodeStage Cert.ReferenceIdeal.dot_S100000x128_S128x128_S100000x128_1_0_0_1_n_n Cert.ReferenceIdeal.dot_S100000x128_S128x128_S100000x128_1_0_0_1_n_n
    Cert.ReferenceIdeal.Facts₀.bcast_S1x128_S100000x128_0_1 Cert.ReferenceIdeal.Facts₀.bcast_S_S100000x128 Cert.ReferenceIdeal.Facts₀.bcast_S1x128_S100000x128_0_1 Cert.ReferenceIdeal.Facts₀.bcast_S_S100000x128
    x agg w1 b1 w2 b2

/-- The body's arithmetic on one block, at row p and column q of the block. -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 x0 x1 x2 x3 x4 x5 (ix2 p q)
      = elu ((∑ j : Fin 128, elu ((∑ k : Fin 128, (x0 (ix2 p k) + x1 (ix2 p k)) * x2 (ix2 k j)) + x3 (ix2 (0 : Fin 1) j))
          * x4 (ix2 j q)) + x5 (ix2 (0 : Fin 1) q)) :=
  blockNode_apply plainK1 plainK2 x0 x1 x2 x3 x4 x5 Cert.KernelIdeal.Facts₀.shapeCasts_S5000x128_S5000x128
    Cert.KernelIdeal.Facts₀.shapeCasts_S1x128_S1x128 Cert.KernelIdeal.Facts₀.broadcasts_S1x128_S5000x128 Cert.KernelIdeal.Facts₀.shapeCasts_S1x128_S1x128 Cert.KernelIdeal.Facts₀.broadcasts_S1x128_S5000x128
    Cert.KernelIdeal.Facts₀.bitsLt_bf16_f32 p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block (t, 0), a weight or a bias row at (0, 0). -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Row p of block t is row 5000·t + p of the array. -/
def row (t : Fin cfg3.N) (p : Fin 5000) : Fin 100000 :=
  ⟨t.val * 5000 + p.val, by
    have h : t.val < 20 := lt_of_lt_of_eq t.isLt N_3
    have := p.isLt
    omega⟩

/-- Window 0's block at point t reads its array at the block's rows. -/
theorem read0 (c : Dev nD) (t : Fin cfg3.N) (p : Fin 5000) (q : Fin 128) :
    iblk3 V c 0 t (ix2 p q) = V c main_v32 (ix2 (row t p) q) := by
  obtain ⟨e0, e1, -, -, -, -, -, -, -, -, -, -, -, -⟩ := idx_facts t
  show V c main_v32 (((cfg3.win 0).blk t).view.emb (ix2 p q)) = V c main_v32 (ix2 (row t p) q)
  refine congrArg (V c main_v32) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- Window 1's block at point t reads its array at the block's rows. -/
theorem read1 (c : Dev nD) (t : Fin cfg3.N) (p : Fin 5000) (q : Fin 128) :
    iblk3 V c 1 t (ix2 p q) = V c main_v44 (ix2 (row t p) q) := by
  obtain ⟨-, -, e0, e1, -, -, -, -, -, -, -, -, -, -⟩ := idx_facts t
  show V c main_v44 (((cfg3.win 1).blk t).view.emb (ix2 p q)) = V c main_v44 (ix2 (row t p) q)
  refine congrArg (V c main_v44) (funext fun a => Fin.ext ?_)
  match a with
  | ⟨0, _⟩ => show win3_1.index t (0 : Fin 2) * 5000 + 1 * p.val = t.val * 5000 + p.val; rw [e0]; omega
  | ⟨1, _⟩ => show win3_1.index t (1 : Fin 2) * 128 + 1 * q.val = q.val; rw [e1]; omega

/-- Window 2's block at point t reads its array whole. -/
theorem read2 (c : Dev nD) (t : Fin cfg3.N) (p : Fin 128) (q : Fin 128) :
    iblk3 V c 2 t (ix2 p q) = V c main_arg14 (ix2 p q) := by
  obtain ⟨-, -, -, -, e0, e1, -, -, -, -, -, -, -, -⟩ := idx_facts t
  show V c main_arg14 (((cfg3.win 2).blk t).view.emb (ix2 p q)) = V c main_arg14 (ix2 p q)
  refine congrArg (V c main_arg14) (funext fun a => Fin.ext ?_)
  match a with
  | ⟨0, _⟩ => show win3_2.index t (0 : Fin 2) * 128 + 1 * p.val = p.val; rw [e0]; omega
  | ⟨1, _⟩ => show win3_2.index t (1 : Fin 2) * 128 + 1 * q.val = q.val; rw [e1]; omega

/-- Window 3's block at point t reads its array whole. -/
theorem read3 (c : Dev nD) (t : Fin cfg3.N) (p : Fin 1) (q : Fin 128) :
    iblk3 V c 3 t (ix2 p q) = V c main_v45 (ix2 p q) := by
  obtain ⟨-, -, -, -, -, -, e0, e1, -, -, -, -, -, -⟩ := idx_facts t
  show V c main_v45 (((cfg3.win 3).blk t).view.emb (ix2 p q)) = V c main_v45 (ix2 p q)
  refine congrArg (V c main_v45) (funext fun a => Fin.ext ?_)
  match a with
  | ⟨0, _⟩ => show win3_3.index t (0 : Fin 2) * 1 + 1 * p.val = p.val; rw [e0]; omega
  | ⟨1, _⟩ => show win3_3.index t (1 : Fin 2) * 128 + 1 * q.val = q.val; rw [e1]; omega

/-- Window 4's block at point t reads its array whole. -/
theorem read4 (c : Dev nD) (t : Fin cfg3.N) (p : Fin 128) (q : Fin 128) :
    iblk3 V c 4 t (ix2 p q) = V c main_arg16 (ix2 p q) := by
  obtain ⟨-, -, -, -, -, -, -, -, e0, e1, -, -, -, -⟩ := idx_facts t
  show V c main_arg16 (((cfg3.win 4).blk t).view.emb (ix2 p q)) = V c main_arg16 (ix2 p q)
  refine congrArg (V c main_arg16) (funext fun a => Fin.ext ?_)
  match a with
  | ⟨0, _⟩ => show win3_4.index t (0 : Fin 2) * 128 + 1 * p.val = p.val; rw [e0]; omega
  | ⟨1, _⟩ => show win3_4.index t (1 : Fin 2) * 128 + 1 * q.val = q.val; rw [e1]; omega

/-- Window 5's block at point t reads its array whole. -/
theorem read5 (c : Dev nD) (t : Fin cfg3.N) (p : Fin 1) (q : Fin 128) :
    iblk3 V c 5 t (ix2 p q) = V c main_v46 (ix2 p q) := by
  obtain ⟨-, -, -, -, -, -, -, -, -, -, e0, e1, -, -⟩ := idx_facts t
  show V c main_v46 (((cfg3.win 5).blk t).view.emb (ix2 p q)) = V c main_v46 (ix2 p q)
  refine congrArg (V c main_v46) (funext fun a => Fin.ext ?_)
  match a with
  | ⟨0, _⟩ => show win3_5.index t (0 : Fin 2) * 1 + 1 * p.val = p.val; rw [e0]; omega
  | ⟨1, _⟩ => show win3_5.index t (1 : Fin 2) * 128 + 1 * q.val = q.val; rw [e1]; omega

/-- What point t writes back is block t of the layer of the arrays as the region finds them. -/
theorem flushed_eq (c : Dev nD) (t : Fin cfg3.N) :
    (dat3 V c).flushed 6 t = ((cfg3.win 6).blk t).view.read (Elt Ideal) (layer (V c main_v32) (V c main_v44) (V c main_arg14) (V c main_v45) (V c main_arg16) (V c main_v46)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  funext j
  obtain ⟨p, q, rfl⟩ := ex_ix2 (n0 := 5000) (n1 := 128) j
  obtain ⟨-, -, -, -, -, -, -, -, -, -, -, -, e0, e1⟩ := idx_facts t
  have hemb : ((cfg3.win 6).blk t).view.emb (ix2 p q) = ix2 (row t p) q := funext fun a => Fin.ext (by
    match a with
    | ⟨0, _⟩ => show win3_6.index t (0 : Fin 2) * 5000 + 1 * p.val = t.val * 5000 + p.val; rw [e0]; omega
    | ⟨1, _⟩ => show win3_6.index t (1 : Fin 2) * 128 + 1 * q.val = q.val; rw [e1]; omega)
  show k3_pay1 (iblk3 V c 0 t) (iblk3 V c 1 t) (iblk3 V c 2 t) (iblk3 V c 3 t) (iblk3 V c 4 t) (iblk3 V c 5 t) (ix2 p q)
    = layer (V c main_v32) (V c main_v44) (V c main_arg14) (V c main_v45) (V c main_arg16) (V c main_v46) (((cfg3.win 6).blk t).view.emb (ix2 p q))
  rw [hemb]
  refine (pay_apply (iblk3 V c 0 t) (iblk3 V c 1 t) (iblk3 V c 2 t) (iblk3 V c 3 t) (iblk3 V c 4 t) (iblk3 V c 5 t) p q).trans ?_
  refine Eq.trans ?_ (nodeStage_apply plainR1 plainR2 _ _ _ _ (V c main_v32) (V c main_v44) (V c main_arg14) (V c main_v45) (V c main_arg16) (V c main_v46) (row t p) q).symm
  simp only [read0, read1, read2, read3, read4, read5]

/-- An index of the array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v47).slice (win3_6.rect t)).set ↔ _
  rw [View.set_slice_whole, Rect.mem_set_unit]
  exact Iff.rfl

/-- Every row lies in the block of its quotient by 5000. -/
theorem cover (i : S100000x128.Idx) :
    ∃ t : Fin cfg3.N, (cfg3.win 6).flush t = true ∧ i ∈ ((cfg3.win 6).blk t).view.set := by
  have h0 : (i 0).val < 100000 := (i 0).isLt
  have h1 : (i 1).val < 128 := (i 1).isLt
  have hN : cfg3.N = 20 := N_3
  let t : Fin cfg3.N := ⟨(i 0).val / 5000, lt_of_lt_of_eq (by omega : (i 0).val / 5000 < 20) hN.symm⟩
  obtain ⟨-, -, -, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e0]; show (i 0).val / 5000 * 5000 ≤ (i 0).val ∧ (i 0).val < (i 0).val / 5000 * 5000 + 5000; omega
  | ⟨1, _⟩ =>
    show win3_6.index t (1 : Fin 2) * 128 ≤ (i 1).val ∧ (i 1).val < win3_6.index t (1 : Fin 2) * 128 + 128
    rw [e1]; omega

/-- The result array after the region: the layer of the arrays as the region finds them. -/
theorem final (c : Dev nD) :
    (dat3 V c).arrAt 6 cfg3.N = layer (V c main_v32) (V c main_v44) (V c main_arg14) (V c main_v45) (V c main_arg16) (V c main_v46) :=
  (dat3 V c).arrAt_eq_of_cover 6 _ (fun t _ => flushed_eq V c t) cover

/-- The input arrays after the region are as it found them: an input window is never written back. -/
theorem kept (c : Dev nD) (w : Fin cfg3.W) (hw : w ≠ 6) : (dat3 V c).arrAt w cfg3.N = V c (Pipeline.arrRef spec3 w) := by
  match w, hw with
  | ⟨0, _⟩, _ => exact ((dat3 V c).arrAt_in 0 rfl _).trans (A_eq3 V c 0)
  | ⟨1, _⟩, _ => exact ((dat3 V c).arrAt_in 1 rfl _).trans (A_eq3 V c 1)
  | ⟨2, _⟩, _ => exact ((dat3 V c).arrAt_in 2 rfl _).trans (A_eq3 V c 2)
  | ⟨3, _⟩, _ => exact ((dat3 V c).arrAt_in 3 rfl _).trans (A_eq3 V c 3)
  | ⟨4, _⟩, _ => exact ((dat3 V c).arrAt_in 4 rfl _).trans (A_eq3 V c 4)
  | ⟨5, _⟩, _ => exact ((dat3 V c).arrAt_in 5 rfl _).trans (A_eq3 V c 5)
  | ⟨6, _⟩, h => exact absurd rfl h

end Cert.KernelIdeal.Region3

end
-- ==== Proof.Region4.lean ====
/-
  Region 4: the readout, over the pooled features.

  The region has one grid point.  It loads the whole [512, 128] array of pooled node features, the two 128 × 128 weights
  and the two bias rows, and writes back the whole result: the pooled features through a dense layer clipped at zero
  and a second dense layer.  Its one block is the whole result array, so the result array ends at that function of the
  arrays as the region finds them; the five input arrays are never written back.
-/
import proofs.«104450_j5282809774138_1_alg».proof.Proof.GenP.KernelIdeal.Frame
import proofs.«104450_j5282809774138_1_alg».proof.Proof.Gen.ReferenceIdeal
import proofs.«104450_j5282809774138_1_alg».proof.Proof.LibGraphLayers
import Idealize.ShloMosaic.Lib.Pipeline.Value

set_option maxRecDepth 16384

noncomputable section

namespace Cert.KernelIdeal.Region4

open Cert.KernelIdeal Cert.KernelIdeal.Gen Cert.KernelIdeal.GenP
open Idealize.ShloMosaic Idealize.ShloMosaic.TcCoe Idealize.SL.Sem Idealize.ShloMosaic.ValueIdx
open Cert.RowOps Cert.Dense Cert.GraphLayers
open Idealize.ShloMosaic.Pipeline (Dat)

/-- An index of a two-axis shape is a pair of coordinates. -/
theorem ex_ix2 {n0 n1 : Nat} (j : (⟨2, ![n0, n1]⟩ : Shape).Idx) : ∃ (p : Fin n0) (q : Fin n1), j = ix2 p q :=
  ⟨j 0, j 1, eq_ix2 j⟩

/-- The kernel's two products are the same plain [512, 128] × [128, 128] one. -/
theorem plainK : IsPlain dot_S512x128_S128x128_S512x128_1_0_0_1_n_n := ⟨rfl, rfl, rfl, rfl, rfl, rfl⟩

/-- So is the whole-array product the layer is stated with. -/
theorem plainR : IsPlain Cert.ReferenceIdeal.dot_S512x128_S128x128_S512x128_1_0_0_1_n_n := ⟨rfl, rfl, rfl, rfl, rfl, rfl⟩

/-- The layer over the whole arrays. -/
abbrev layer (hg : FVec Ideal ⟨2, ![512, 128]⟩ .f32) (w1 : FVec Ideal ⟨2, ![128, 128]⟩ .f32) (b1 : FVec Ideal ⟨2, ![1, 128]⟩ .f32)
    (w2 : FVec Ideal ⟨2, ![128, 128]⟩ .f32) (b2 : FVec Ideal ⟨2, ![1, 128]⟩ .f32) : FVec Ideal ⟨2, ![512, 128]⟩ .f32 :=
  readoutStage Cert.ReferenceIdeal.dot_S512x128_S128x128_S512x128_1_0_0_1_n_n Cert.ReferenceIdeal.dot_S512x128_S128x128_S512x128_1_0_0_1_n_n
    Cert.ReferenceIdeal.Facts₀.bcast_S1x128_S512x128_0_1 Cert.ReferenceIdeal.Facts₀.bcast_S_S512x128 Cert.ReferenceIdeal.Facts₀.bcast_S1x128_S512x128_0_1 hg w1 b1 w2 b2

/-- The body's arithmetic on one block, at row p and column q of the block. -/
theorem pay_apply (x0 : Vec Ideal S512x128 .f32) (x1 : Vec Ideal S128x128 .f32) (x2 : Vec Ideal S1x128 .f32)
    (x3 : Vec Ideal S128x128 .f32) (x4 : Vec Ideal S1x128 .f32) (p : Fin 512) (q : Fin 128) :
    k4_pay1 x0 x1 x2 x3 x4 (ix2 p q)
      = (∑ j : Fin 128, max ((∑ k : Fin 128, x0 (ix2 p k) * x1 (ix2 k j)) + x2 (ix2 (0 : Fin 1) j)) z * x3 (ix2 j q))
          + x4 (ix2 (0 : Fin 1) q) :=
  blockReadout_apply plainK plainK x0 x1 x2 x3 x4 Cert.KernelIdeal.Facts₀.shapeCasts_S512x128_S512x128
    Cert.KernelIdeal.Facts₀.shapeCasts_S1x128_S1x128 Cert.KernelIdeal.Facts₀.broadcasts_S1x128_S512x128 Cert.KernelIdeal.Facts₀.shapeCasts_S1x128_S1x128 Cert.KernelIdeal.Facts₀.broadcasts_S1x128_S512x128
    Cert.KernelIdeal.Facts₀.bitsLt_bf16_f32 p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block (t, 0), a weight or a bias row at (0, 0). -/
theorem idx_facts : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- Row p of block t is row 512·t + p of the array. -/
def row (t : Fin cfg4.N) (p : Fin 512) : Fin 512 :=
  ⟨t.val * 512 + p.val, by
    have h : t.val < 1 := lt_of_lt_of_eq t.isLt N_4
    have := p.isLt
    omega⟩

/-- Window 0's block at point t reads its array at the block's rows. -/
theorem read0 (c : Dev nD) (t : Fin cfg4.N) (p : Fin 512) (q : Fin 128) :
    iblk4 V c 0 t (ix2 p q) = V c main_v50 (ix2 (row t p) q) := by
  obtain ⟨e0, e1, -, -, -, -, -, -, -, -, -, -⟩ := idx_facts t
  show V c main_v50 (((cfg4.win 0).blk t).view.emb (ix2 p q)) = V c main_v50 (ix2 (row t p) q)
  refine congrArg (V c main_v50) (funext fun a => Fin.ext ?_)
  match a with
  | ⟨0, _⟩ => show win4_0.index t (0 : Fin 2) * 512 + 1 * p.val = t.val * 512 + p.val; rw [e0]; omega
  | ⟨1, _⟩ => show win4_0.index t (1 : Fin 2) * 128 + 1 * q.val = q.val; rw [e1]; omega

/-- Window 1's block at point t reads its array whole. -/
theorem read1 (c : Dev nD) (t : Fin cfg4.N) (p : Fin 128) (q : Fin 128) :
    iblk4 V c 1 t (ix2 p q) = V c main_arg18 (ix2 p q) := by
  obtain ⟨-, -, e0, e1, -, -, -, -, -, -, -, -⟩ := idx_facts t
  show V c main_arg18 (((cfg4.win 1).blk t).view.emb (ix2 p q)) = V c main_arg18 (ix2 p q)
  refine congrArg (V c main_arg18) (funext fun a => Fin.ext ?_)
  match a with
  | ⟨0, _⟩ => show win4_1.index t (0 : Fin 2) * 128 + 1 * p.val = p.val; rw [e0]; omega
  | ⟨1, _⟩ => show win4_1.index t (1 : Fin 2) * 128 + 1 * q.val = q.val; rw [e1]; omega

/-- Window 2's block at point t reads its array whole. -/
theorem read2 (c : Dev nD) (t : Fin cfg4.N) (p : Fin 1) (q : Fin 128) :
    iblk4 V c 2 t (ix2 p q) = V c main_v51 (ix2 p q) := by
  obtain ⟨-, -, -, -, e0, e1, -, -, -, -, -, -⟩ := idx_facts t
  show V c main_v51 (((cfg4.win 2).blk t).view.emb (ix2 p q)) = V c main_v51 (ix2 p q)
  refine congrArg (V c main_v51) (funext fun a => Fin.ext ?_)
  match a with
  | ⟨0, _⟩ => show win4_2.index t (0 : Fin 2) * 1 + 1 * p.val = p.val; rw [e0]; omega
  | ⟨1, _⟩ => show win4_2.index t (1 : Fin 2) * 128 + 1 * q.val = q.val; rw [e1]; omega

/-- Window 3's block at point t reads its array whole. -/
theorem read3 (c : Dev nD) (t : Fin cfg4.N) (p : Fin 128) (q : Fin 128) :
    iblk4 V c 3 t (ix2 p q) = V c main_arg20 (ix2 p q) := by
  obtain ⟨-, -, -, -, -, -, e0, e1, -, -, -, -⟩ := idx_facts t
  show V c main_arg20 (((cfg4.win 3).blk t).view.emb (ix2 p q)) = V c main_arg20 (ix2 p q)
  refine congrArg (V c main_arg20) (funext fun a => Fin.ext ?_)
  match a with
  | ⟨0, _⟩ => show win4_3.index t (0 : Fin 2) * 128 + 1 * p.val = p.val; rw [e0]; omega
  | ⟨1, _⟩ => show win4_3.index t (1 : Fin 2) * 128 + 1 * q.val = q.val; rw [e1]; omega

/-- Window 4's block at point t reads its array whole. -/
theorem read4 (c : Dev nD) (t : Fin cfg4.N) (p : Fin 1) (q : Fin 128) :
    iblk4 V c 4 t (ix2 p q) = V c main_v52 (ix2 p q) := by
  obtain ⟨-, -, -, -, -, -, -, -, e0, e1, -, -⟩ := idx_facts t
  show V c main_v52 (((cfg4.win 4).blk t).view.emb (ix2 p q)) = V c main_v52 (ix2 p q)
  refine congrArg (V c main_v52) (funext fun a => Fin.ext ?_)
  match a with
  | ⟨0, _⟩ => show win4_4.index t (0 : Fin 2) * 1 + 1 * p.val = p.val; rw [e0]; omega
  | ⟨1, _⟩ => show win4_4.index t (1 : Fin 2) * 128 + 1 * q.val = q.val; rw [e1]; omega

/-- What point t writes back is block t of the layer of the arrays as the region finds them. -/
theorem flushed_eq (c : Dev nD) (t : Fin cfg4.N) :
    (dat4 V c).flushed 5 t = ((cfg4.win 5).blk t).view.read (Elt Ideal) (layer (V c main_v50) (V c main_arg18) (V c main_v51) (V c main_arg20) (V c main_v52)) := by
  show (cfg4.win 5).cut (grid4.coords t) ((dat4 V c).after 5 t) = _
  rw [after4_5]
  unfold out4_5
  rw [View.canon_unit_zero hz]
  simp only [View.ld_unit_zero (S := S512x128) hz, View.ld_unit_zero (S := S128x128) hz, View.ld_unit_zero (S := S1x128) hz]
  funext j
  obtain ⟨p, q, rfl⟩ := ex_ix2 (n0 := 512) (n1 := 128) j
  obtain ⟨-, -, -, -, -, -, -, -, -, -, e0, e1⟩ := idx_facts t
  have hemb : ((cfg4.win 5).blk t).view.emb (ix2 p q) = ix2 (row t p) q := funext fun a => Fin.ext (by
    match a with
    | ⟨0, _⟩ => show win4_5.index t (0 : Fin 2) * 512 + 1 * p.val = t.val * 512 + p.val; rw [e0]; omega
    | ⟨1, _⟩ => show win4_5.index t (1 : Fin 2) * 128 + 1 * q.val = q.val; rw [e1]; omega)
  show k4_pay1 (iblk4 V c 0 t) (iblk4 V c 1 t) (iblk4 V c 2 t) (iblk4 V c 3 t) (iblk4 V c 4 t) (ix2 p q)
    = layer (V c main_v50) (V c main_arg18) (V c main_v51) (V c main_arg20) (V c main_v52) (((cfg4.win 5).blk t).view.emb (ix2 p q))
  rw [hemb]
  refine (pay_apply (iblk4 V c 0 t) (iblk4 V c 1 t) (iblk4 V c 2 t) (iblk4 V c 3 t) (iblk4 V c 4 t) p q).trans ?_
  refine Eq.trans ?_ (readoutStage_apply plainR plainR _ _ _ (V c main_v50) (V c main_arg18) (V c main_v51) (V c main_arg20) (V c main_v52) (row t p) q).symm
  simp only [read0, read1, read2, read3, read4]

/-- An index of the array is in point t's block iff each coordinate is in the block's range on its axis. -/
theorem mem_blk (t : Fin cfg4.N) (i : S512x128.Idx) :
    i ∈ ((cfg4.win 5).blk t).view.set ↔ ∀ a : Fin 2, win4_5.index t a * S512x128.size a ≤ (i a).val
      ∧ (i a).val < win4_5.index t a * S512x128.size a + S512x128.size a := by
  show i ∈ ((View.whole main_v53).slice (win4_5.rect t)).set ↔ _
  rw [View.set_slice_whole, Rect.mem_set_unit]
  exact Iff.rfl

/-- Every row lies in the block of its quotient by 512. -/
theorem cover (i : S512x128.Idx) :
    ∃ t : Fin cfg4.N, (cfg4.win 5).flush t = true ∧ i ∈ ((cfg4.win 5).blk t).view.set := by
  have h0 : (i 0).val < 512 := (i 0).isLt
  have h1 : (i 1).val < 128 := (i 1).isLt
  have hN : cfg4.N = 1 := N_4
  let t : Fin cfg4.N := ⟨(i 0).val / 512, lt_of_lt_of_eq (by omega : (i 0).val / 512 < 1) hN.symm⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 512 ≤ (i 0).val ∧ (i 0).val < win4_5.index t (0 : Fin 2) * 512 + 512
    rw [e0]; show (i 0).val / 512 * 512 ≤ (i 0).val ∧ (i 0).val < (i 0).val / 512 * 512 + 512; omega
  | ⟨1, _⟩ =>
    show win4_5.index t (1 : Fin 2) * 128 ≤ (i 1).val ∧ (i 1).val < win4_5.index t (1 : Fin 2) * 128 + 128
    rw [e1]; omega

/-- The result array after the region: the layer of the arrays as the region finds them. -/
theorem final (c : Dev nD) :
    (dat4 V c).arrAt 5 cfg4.N = layer (V c main_v50) (V c main_arg18) (V c main_v51) (V c main_arg20) (V c main_v52) :=
  (dat4 V c).arrAt_eq_of_cover 5 _ (fun t _ => flushed_eq V c t) cover

/-- The input arrays after the region are as it found them: an input window is never written back. -/
theorem kept (c : Dev nD) (w : Fin cfg4.W) (hw : w ≠ 5) : (dat4 V c).arrAt w cfg4.N = V c (Pipeline.arrRef spec4 w) := by
  match w, hw with
  | ⟨0, _⟩, _ => exact ((dat4 V c).arrAt_in 0 rfl _).trans (A_eq4 V c 0)
  | ⟨1, _⟩, _ => exact ((dat4 V c).arrAt_in 1 rfl _).trans (A_eq4 V c 1)
  | ⟨2, _⟩, _ => exact ((dat4 V c).arrAt_in 2 rfl _).trans (A_eq4 V c 2)
  | ⟨3, _⟩, _ => exact ((dat4 V c).arrAt_in 3 rfl _).trans (A_eq4 V c 3)
  | ⟨4, _⟩, _ => exact ((dat4 V c).arrAt_in 4 rfl _).trans (A_eq4 V c 4)
  | ⟨5, _⟩, h => exact absurd rfl h

end Cert.KernelIdeal.Region4

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Model.lean ====
/-
  The network as one function of its twenty-two argument arrays.

  Node features are looked up in the atom table and edge features in the bond table, a negative index first wrapped
  by the table's length.  Each of the two convolutions gathers, for every edge, the features of the edge's source node,
  passes them with the edge features through the edge layer, adds the messages up at every edge's target node, and
  passes the node features with those sums through the node layer.  The node features are then added up per graph
  and passed through the readout.  The dense layers are the three of the layers' file, over the whole arrays; everything
  else is the host's own operations, with the dimension records and shape facts of the reference program.
-/
import proofs.«104450_j5282809774138_1_alg».proof.Proof.Gen.ReferenceIdeal
import proofs.«104450_j5282809774138_1_alg».proof.Proof.LibGraphLayers

noncomputable section

namespace Cert.Model

open Cert.ReferenceIdeal Cert.ReferenceIdeal.Facts₀ Idealize.ShloMosaic Cert.GraphLayers

/-- A negative index wrapped by the table's length n (an index array of shape S). -/
def wrap (S : Shape) (hb : S_.BroadcastsInDim S (![] : Fin 0 → Fin S.rank)) (n : BitVec 32) (i : IVec S 32) : IVec S 32 :=
  select (cmpi .slt i (broadcastInDim S ![] hb (constantI S_ 32 0#32))) (addi i (broadcastInDim S ![] hb (constantI S_ 32 n))) i

/-- A length-128 bias as one [1, 128] row. -/
def row128 (b : FVec Ideal S128 .f32) : FVec Ideal S1x128 .f32 := broadcastInDim S1x128 ![1] bcast_S128_S1x128_1 b

/-- A length-64 bias as one [1, 64] row. -/
def row64 (b : FVec Ideal S64 .f32) : FVec Ideal S1x64 .f32 := broadcastInDim S1x64 ![1] bcast_S64_S1x64_1 b

/-- The node features looked up in the atom table. -/
def nodes (a0 : IVec S100000 32) (a4 : FVec Ideal S119x64 .f32) : FVec Ideal S100000x64 .f32 :=
  Host.gather gather_S119x64_S100000x1_S100000x64_1_0_n_n_0_1_164 a4
    (broadcastInDim S100000x1 ![0] bcast_S100000_S100000x1_0 (wrap S100000 bcast_S_S100000 119#32 a0))

/-- The edge features looked up in the bond table. -/
def edges (a2 : IVec S1600000 32) (a5 : FVec Ideal S16x64 .f32) : FVec Ideal S1600000x64 .f32 :=
  Host.gather gather_S16x64_S1600000x1_S1600000x64_1_0_n_n_0_1_164 a5
    (broadcastInDim S1600000x1 ![0] bcast_S1600000_S1600000x1_0 (wrap S1600000 bcast_S_S1600000 16#32 a2))

/-- Row k of the edge list, as a vector. -/
def endpoint (k : Nat) (hs : S2x1600000.Slices ![k, 0] S1x1600000) (a1 : IVec S2x1600000 32) : IVec S1600000 32 :=
  shapeCast S1600000 (extractStridedSlice S1x1600000 ![k, 0] a1 hs) shapeCasts_S1x1600000_S1600000

/-- The source nodes as gather indices (wrapped by the number of nodes). -/
def srcIdx (a1 : IVec S2x1600000 32) : IVec S1600000x1 32 :=
  broadcastInDim S1600000x1 ![0] bcast_S1600000_S1600000x1_0
    (wrap S1600000 bcast_S_S1600000 100000#32 (endpoint 0 slices_S2x1600000_S1x1600000_0_0 a1))

/-- The target nodes as scatter indices. -/
def dstIdx (a1 : IVec S2x1600000 32) : IVec S1600000x1 32 :=
  broadcastInDim S1600000x1 ![0] bcast_S1600000_S1600000x1_0 (endpoint 1 slices_S2x1600000_S1x1600000_1_0 a1)

/-- The first convolution's messages. -/
def msg0 (x : FVec Ideal S100000x64 .f32) (e : FVec Ideal S1600000x64 .f32) (a1 : IVec S2x1600000 32)
    (a6 : FVec Ideal S64x64 .f32) (b7 : FVec Ideal S1x64 .f32) : FVec Ideal S1600000x64 .f32 :=
  edgeStage dot_S1600000x64_S64x64_S1600000x64_1_0_0_1_n_n bcast_S1x64_S1600000x64_0_1 bcast_S_S1600000x64
    (Host.gather gather_S100000x64_S1600000x1_S1600000x64_1_0_n_n_0_1_164 x (srcIdx a1)) e a6 b7

/-- The first convolution's node features. -/
def conv0 (x : FVec Ideal S100000x64 .f32) (m0 : FVec Ideal S1600000x64 .f32) (a1 : IVec S2x1600000 32)
    (a8 : FVec Ideal S64x128 .f32) (b9 : FVec Ideal S1x128 .f32) (a10 : FVec Ideal S128x128 .f32) (b11 : FVec Ideal S1x128 .f32) :
    FVec Ideal S100000x128 .f32 :=
  nodeStage dot_S100000x64_S64x128_S100000x128_1_0_0_1_n_n dot_S100000x128_S128x128_S100000x128_1_0_0_1_n_n
    bcast_S1x128_S100000x128_0_1 bcast_S_S100000x128 bcast_S1x128_S100000x128_0_1 bcast_S_S100000x128 x
    (Host.scatterAdd scatter_S100000x64_S1600000x1_S1600000x64_1_0_0_1
      (broadcastInDim S100000x64 ![] bcast_S_S100000x64 (constant (F := Ideal) S_ .f32 0x00000000#32)) (dstIdx a1) m0)
    a8 b9 a10 b11

/-- The second convolution's messages. -/
def msg1 (x1 : FVec Ideal S100000x128 .f32) (e : FVec Ideal S1600000x64 .f32) (a1 : IVec S2x1600000 32)
    (a12 : FVec Ideal S64x128 .f32) (b13 : FVec Ideal S1x128 .f32) : FVec Ideal S1600000x128 .f32 :=
  edgeStage dot_S1600000x64_S64x128_S1600000x128_1_0_0_1_n_n bcast_S1x128_S1600000x128_0_1 bcast_S_S1600000x128
    (Host.gather gather_S100000x128_S1600000x1_S1600000x128_1_0_n_n_0_1_1128 x1 (srcIdx a1)) e a12 b13

/-- The second convolution's node features. -/
def conv1 (x1 : FVec Ideal S100000x128 .f32) (m1 : FVec Ideal S1600000x128 .f32) (a1 : IVec S2x1600000 32)
    (a14 : FVec Ideal S128x128 .f32) (b15 : FVec Ideal S1x128 .f32) (a16 : FVec Ideal S128x128 .f32) (b17 : FVec Ideal S1x128 .f32) :
    FVec Ideal S100000x128 .f32 :=
  nodeStage dot_S100000x128_S128x128_S100000x128_1_0_0_1_n_n dot_S100000x128_S128x128_S100000x128_1_0_0_1_n_n
    bcast_S1x128_S100000x128_0_1 bcast_S_S100000x128 bcast_S1x128_S100000x128_0_1 bcast_S_S100000x128 x1
    (Host.scatterAdd scatter_S100000x128_S1600000x1_S1600000x128_1_0_0_1
      (broadcastInDim S100000x128 ![] bcast_S_S100000x128 (constant (F := Ideal) S_ .f32 0x00000000#32)) (dstIdx a1) m1)
    a14 b15 a16 b17

/-- The node features added up per graph. -/
def pool (x2 : FVec Ideal S100000x128 .f32) (a3 : IVec S100000 32) : FVec Ideal S512x128 .f32 :=
  Host.scatterAdd scatter_S512x128_S100000x1_S100000x128_1_0_0_1
    (broadcastInDim S512x128 ![] bcast_S_S512x128 (constant (F := Ideal) S_ .f32 0x00000000#32))
    (broadcastInDim S100000x1 ![0] bcast_S100000_S100000x1_0 a3) x2

/-- The readout of the pooled features. -/
def readout (hg : FVec Ideal S512x128 .f32) (a18 : FVec Ideal S128x128 .f32) (b19 : FVec Ideal S1x128 .f32)
    (a20 : FVec Ideal S128x128 .f32) (b21 : FVec Ideal S1x128 .f32) : FVec Ideal S512x128 .f32 :=
  readoutStage dot_S512x128_S128x128_S512x128_1_0_0_1_n_n dot_S512x128_S128x128_S512x128_1_0_0_1_n_n
    bcast_S1x128_S512x128_0_1 bcast_S_S512x128 bcast_S1x128_S512x128_0_1 hg a18 b19 a20 b21

/-- The whole network, with the way a bias vector is made into one row left open: the result as one function of the
    argument arrays. -/
def modelWith (r64 : FVec Ideal S64 .f32 → FVec Ideal S1x64 .f32) (r128 : FVec Ideal S128 .f32 → FVec Ideal S1x128 .f32)
    (a0 : IVec S100000 32) (a1 : IVec S2x1600000 32) (a2 : IVec S1600000 32) (a3 : IVec S100000 32)
    (a4 : FVec Ideal S119x64 .f32) (a5 : FVec Ideal S16x64 .f32) (a6 : FVec Ideal S64x64 .f32) (a7 : FVec Ideal S64 .f32)
    (a8 : FVec Ideal S64x128 .f32) (a9 : FVec Ideal S128 .f32) (a10 : FVec Ideal S128x128 .f32) (a11 : FVec Ideal S128 .f32)
    (a12 : FVec Ideal S64x128 .f32) (a13 : FVec Ideal S128 .f32) (a14 : FVec Ideal S128x128 .f32) (a15 : FVec Ideal S128 .f32)
    (a16 : FVec Ideal S128x128 .f32) (a17 : FVec Ideal S128 .f32) (a18 : FVec Ideal S128x128 .f32) (a19 : FVec Ideal S128 .f32)
    (a20 : FVec Ideal S128x128 .f32) (a21 : FVec Ideal S128 .f32) : FVec Ideal S512x128 .f32 :=
  let x := nodes a0 a4
  let e := edges a2 a5
  let x1 := conv0 x (msg0 x e a1 a6 (r64 a7)) a1 a8 (r128 a9) a10 (r128 a11)
  let x2 := conv1 x1 (msg1 x1 e a1 a12 (r128 a13)) a1 a14 (r128 a15) a16 (r128 a17)
  readout (pool x2 a3) a18 (r128 a19) a20 (r128 a21)

/-- The whole network, each bias made into a row by the host's broadcast along the second axis. -/
def model (a0 : IVec S100000 32) (a1 : IVec S2x1600000 32) (a2 : IVec S1600000 32) (a3 : IVec S100000 32)
    (a4 : FVec Ideal S119x64 .f32) (a5 : FVec Ideal S16x64 .f32) (a6 : FVec Ideal S64x64 .f32) (a7 : FVec Ideal S64 .f32)
    (a8 : FVec Ideal S64x128 .f32) (a9 : FVec Ideal S128 .f32) (a10 : FVec Ideal S128x128 .f32) (a11 : FVec Ideal S128 .f32)
    (a12 : FVec Ideal S64x128 .f32) (a13 : FVec Ideal S128 .f32) (a14 : FVec Ideal S128x128 .f32) (a15 : FVec Ideal S128 .f32)
    (a16 : FVec Ideal S128x128 .f32) (a17 : FVec Ideal S128 .f32) (a18 : FVec Ideal S128x128 .f32) (a19 : FVec Ideal S128 .f32)
    (a20 : FVec Ideal S128x128 .f32) (a21 : FVec Ideal S128 .f32) : FVec Ideal S512x128 .f32 :=
  modelWith row64 row128 a0 a1 a2 a3 a4 a5 a6 a7 a8 a9 a10 a11 a12 a13 a14 a15 a16 a17 a18 a19 a20 a21

end Cert.Model

end
-- ==== Proof.Fold.lean ====
/-
  The idealized kernel program as one line of operations, and what its result buffer holds at the end.

  Each region rewrites its one output array with its layer of its input arrays and leaves every other buffer as it
  was: exactly what one host operation with that function does.  The contents after the last region are then the
  launch contents taken through one line of operations — the five stretches of host operations with the five layers in
  between — and the result buffer's contents are read off that line operation by operation.
-/
import proofs.«104450_j5282809774138_1_alg».proof.Proof.KernelRun
import proofs.«104450_j5282809774138_1_alg».proof.Proof.Region0
import proofs.«104450_j5282809774138_1_alg».proof.Proof.Region1
import proofs.«104450_j5282809774138_1_alg».proof.Proof.Region2
import proofs.«104450_j5282809774138_1_alg».proof.Proof.Region3
import proofs.«104450_j5282809774138_1_alg».proof.Proof.Region4
import proofs.«104450_j5282809774138_1_alg».proof.Proof.LibRegionOp
import proofs.«104450_j5282809774138_1_alg».proof.Proof.Model

set_option maxRecDepth 16384

noncomputable section

namespace Cert.KernelIdeal.Fold

open Cert.KernelIdeal Cert.KernelIdeal.Gen Cert.KernelIdeal.GenP
open Idealize.ShloMosaic Idealize.ShloMosaic.StableHlo Idealize.ShloMosaic.TcCoe Idealize.SL.Sem

/-! ## An operation of five or six operands, its function taking the contents one by one -/

section Nary

variable {τ : Topo} {sig : RefSig} {Val : EltTy → Type}

/-- An operation over five references whose function takes the five contents one by one. -/
def op5 (x0 x1 x2 x3 x4 y : Ref sig .tc)
    (g : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host
      ∧ (((![x0, x1, x2, x3, x4] : Fin 5 → Ref sig .tc) k : Ref sig .tc) : DevRef τ sig).isScoped = false := by decide)
    (hy : y.space ≠ .host ∧ (y : DevRef τ sig).isScoped = false := by exact ⟨by decide, rfl⟩) : HloOp τ sig Val :=
  nary ![x0, x1, x2, x3, x4] y (fun u => g (u 0) (u 1) (u 2) (u 3) (u 4)) hxs hy

/-- An operation over six references whose function takes the six contents one by one. -/
def op6 (x0 x1 x2 x3 x4 x5 y : Ref sig .tc)
    (g : x0.ty.Contents Val → x1.ty.Contents Val → x2.ty.Contents Val → x3.ty.Contents Val → x4.ty.Contents Val
      → x5.ty.Contents Val → y.ty.Contents Val)
    (hxs : ∀ k, ((![x0, x1, x2, x3, x4, x5] : Fin 6 → Ref sig .tc) k).space ≠ .host
      ∧ (((![x0, x1, x2, x3, x4, x5] : Fin 6 → Ref sig .tc) k : Ref sig .tc) : DevRef τ sig).isScoped = false := by decide)
    (hy : y.space ≠ .host ∧ (y : DevRef τ sig).isScoped = false := by exact ⟨by decide, rfl⟩) : HloOp τ sig Val :=
  nary ![x0, x1, x2, x3, x4, x5] y (fun u => g (u 0) (u 1) (u 2) (u 3) (u 4) (u 5)) hxs hy

variable {x0 x1 x2 x3 x4 x5 y : Ref sig .tc}

/-- At its result buffer the operation leaves its function of the five operands' contents. -/
theorem op5_result
    (g : x0.ty.Contents Val → x1.ty.Contents Val → x2.ty.Contents Val → x3.ty.Contents Val → x4.ty.Contents Val → y.ty.Contents Val)
    (hxs hy) (F : Valuation τ sig Val) :
    (op5 (τ := τ) x0 x1 x2 x3 x4 y g hxs hy).result F (no_index (Proc.devRef .tc y))
      = g (F (Proc.devRef .tc x0)) (F (Proc.devRef .tc x1)) (F (Proc.devRef .tc x2)) (F (Proc.devRef .tc x3))
          (F (Proc.devRef .tc x4)) := by
  unfold op5; rw [nary_result]; rfl

/-- At any other buffer it leaves what was there. -/
theorem op5_result_ne
    (g : x0.ty.Contents Val → x1.ty.Contents Val → x2.ty.Contents Val → x3.ty.Contents Val → x4.ty.Contents Val → y.ty.Contents Val)
    (hxs hy) (F : Valuation τ sig Val) {r : Ref sig .tc} (h : r ≠ y) :
    (op5 (τ := τ) x0 x1 x2 x3 x4 y g hxs hy).result F (no_index (Proc.devRef .tc r)) = F (Proc.devRef .tc r) := by
  unfold op5; rw [nary_result_ne]; exact h

/-- At its result buffer the operation leaves its function of the six operands' contents. -/
theorem op6_result
    (g : x0.ty.Contents Val → x1.ty.Contents Val → x2.ty.Contents Val → x3.ty.Contents Val → x4.ty.Contents Val
      → x5.ty.Contents Val → y.ty.Contents Val)
    (hxs hy) (F : Valuation τ sig Val) :
    (op6 (τ := τ) x0 x1 x2 x3 x4 x5 y g hxs hy).result F (no_index (Proc.devRef .tc y))
      = g (F (Proc.devRef .tc x0)) (F (Proc.devRef .tc x1)) (F (Proc.devRef .tc x2)) (F (Proc.devRef .tc x3))
          (F (Proc.devRef .tc x4)) (F (Proc.devRef .tc x5)) := by
  unfold op6; rw [nary_result]; rfl

/-- At any other buffer it leaves what was there. -/
theorem op6_result_ne
    (g : x0.ty.Contents Val → x1.ty.Contents Val → x2.ty.Contents Val → x3.ty.Contents Val → x4.ty.Contents Val
      → x5.ty.Contents Val → y.ty.Contents Val)
    (hxs hy) (F : Valuation τ sig Val) {r : Ref sig .tc} (h : r ≠ y) :
    (op6 (τ := τ) x0 x1 x2 x3 x4 x5 y g hxs hy).result F (no_index (Proc.devRef .tc r)) = F (Proc.devRef .tc r) := by
  unfold op6; rw [nary_result_ne]; exact h

end Nary

/-! ## The regions as operations -/

/-- The first edge layer as an operation: its four arrays in, the messages out. -/
def op0 : HloOp τ sig (Elt Ideal) := quaternary main_v24 main_v13 main_arg6 main_v25 main_v26 Region0.layer

/-- The first node layer as an operation. -/
def op1 : HloOp τ sig (Elt Ideal) :=
  op6 main_v6 main_v29 main_arg8 main_v30 main_arg10 main_v31 main_v32 Region1.layer

/-- The second edge layer as an operation. -/
def op2 : HloOp τ sig (Elt Ideal) := quaternary main_v39 main_v13 main_arg12 main_v40 main_v41 Region2.layer

/-- The second node layer as an operation. -/
def op3 : HloOp τ sig (Elt Ideal) :=
  op6 main_v32 main_v44 main_arg14 main_v45 main_arg16 main_v46 main_v47 Region3.layer

/-- The readout as an operation. -/
def op4 : HloOp τ sig (Elt Ideal) :=
  op5 main_v50 main_arg18 main_v51 main_arg20 main_v52 main_v53 Region4.layer

variable (m : (ℓ : Loc nD τ sig) → Buf (Elt Ideal) ℓ) (ρ : Dev nD → PrngReg)

/-- Region 0 leaves what its operation leaves. -/
theorem W2_eq (c : Dev nD) : W2 m ρ c = op0.result (W1 m ρ c) := by
  unfold W2
  refine Cert.RegionOp.withArrays_eq_result spec0 launch0.win.arr_inj c (W1 m ρ c) _ op0 4 rfl ?_
    (fun w hw => Region0.kept (V1 m ρ) c w hw)
  exact (Region0.final (V1 m ρ) c).trans
    (quaternary_result main_v24 main_v13 main_arg6 main_v25 main_v26 Region0.layer _ _ _ _ _ (W1 m ρ c)).symm

/-- Region 1 leaves what its operation leaves. -/
theorem W4_eq (c : Dev nD) : W4 m ρ c = op1.result (W3 m ρ c) := by
  unfold W4
  refine Cert.RegionOp.withArrays_eq_result spec1 launch1.win.arr_inj c (W3 m ρ c) _ op1 6 rfl ?_
    (fun w hw => Region1.kept (V3 m ρ) c w hw)
  refine (Region1.final (V3 m ρ) c).trans ?_
  unfold op1
  exact (op6_result (x0 := main_v6) (x1 := main_v29) (x2 := main_arg8) (x3 := main_v30) (x4 := main_arg10) (x5 := main_v31)
    (y := main_v32) Region1.layer _ _ (W3 m ρ c)).symm

/-- Region 2 leaves what its operation leaves. -/
theorem W6_eq (c : Dev nD) : W6 m ρ c = op2.result (W5 m ρ c) := by
  unfold W6
  refine Cert.RegionOp.withArrays_eq_result spec2 launch2.win.arr_inj c (W5 m ρ c) _ op2 4 rfl ?_
    (fun w hw => Region2.kept (V5 m ρ) c w hw)
  exact (Region2.final (V5 m ρ) c).trans
    (quaternary_result main_v39 main_v13 main_arg12 main_v40 main_v41 Region2.layer _ _ _ _ _ (W5 m ρ c)).symm

/-- Region 3 leaves what its operation leaves. -/
theorem W8_eq (c : Dev nD) : W8 m ρ c = op3.result (W7 m ρ c) := by
  unfold W8
  refine Cert.RegionOp.withArrays_eq_result spec3 launch3.win.arr_inj c (W7 m ρ c) _ op3 6 rfl ?_
    (fun w hw => Region3.kept (V7 m ρ) c w hw)
  refine (Region3.final (V7 m ρ) c).trans ?_
  unfold op3
  exact (op6_result (x0 := main_v32) (x1 := main_v44) (x2 := main_arg14) (x3 := main_v45) (x4 := main_arg16) (x5 := main_v46)
    (y := main_v47) Region3.layer _ _ (W7 m ρ c)).symm

/-- Region 4 leaves what its operation leaves. -/
theorem W10_eq (c : Dev nD) : W10 m ρ c = op4.result (W9 m ρ c) := by
  unfold W10
  refine Cert.RegionOp.withArrays_eq_result spec4 launch4.win.arr_inj c (W9 m ρ c) _ op4 5 rfl ?_
    (fun w hw => Region4.kept (V9 m ρ) c w hw)
  refine (Region4.final (V9 m ρ) c).trans ?_
  unfold op4
  exact (op5_result (x0 := main_v50) (x1 := main_arg18) (x2 := main_v51) (x3 := main_arg20) (x4 := main_v52)
    (y := main_v53) Region4.layer _ _ (W9 m ρ c)).symm

/-- The contents after the last region: the launch contents through the stretches and the layers in turn. -/
theorem W10_fold (c : Dev nD) :
    W10 m ρ c = op4.result (after hostOps4 (op3.result (after hostOps3 (op2.result (after hostOps2
      (op1.result (after hostOps1 (op0.result (after hostOps0 (W0 m ρ c)))))))))) := by
  rw [W10_eq]; dsimp only [W9]
  rw [W8_eq]; dsimp only [W7]
  rw [W6_eq]; dsimp only [W5]
  rw [W4_eq]; dsimp only [W3]
  rw [W2_eq]

end Cert.KernelIdeal.Fold

end
-- ==== Proof.KernelValue.lean ====
/-
  What the idealized kernel program's result buffer holds at the end: the network of its argument arrays.

  Read operation by operation, the line of stretches and layers computes the network's function of the launch
  contents of the argument buffers, with one difference of spelling: the kernel program makes each bias vector into a
  one-row array by a reshape, where the network's function as stated uses the host's broadcast along the second axis.
  The two are the same array (both read, at (0, c), the vector at c), so the result is the network's function.
-/
import proofs.«104450_j5282809774138_1_alg».proof.Proof.Fold

set_option maxRecDepth 16384

noncomputable section

namespace Cert.KernelIdeal.Value

open Cert.KernelIdeal Cert.KernelIdeal.Gen Cert.KernelIdeal.GenP Cert.KernelIdeal.Fold
open Idealize.ShloMosaic Idealize.ShloMosaic.StableHlo Idealize.ShloMosaic.TcCoe Idealize.SL.Sem

/-- A length-64 bias made into one row by a reshape. -/
def rs64 (b : FVec Ideal S64 .f32) : FVec Ideal S1x64 .f32 := fun i => shapeCast S1x64 b Facts₀.shapeCasts_S64_S1x64 i

/-- A length-128 bias made into one row by a reshape. -/
def rs128 (b : FVec Ideal S128 .f32) : FVec Ideal S1x128 .f32 := fun i => shapeCast S1x128 b Facts₀.shapeCasts_S128_S1x128 i

/-- The reshape and the host's broadcast make the same row. -/
theorem rs64_eq : rs64 = Cert.Model.row64 :=
  funext fun b => Cert.GraphLayers.reshapeAsRow_eq b Facts₀.shapeCasts_S64_S1x64 Cert.ReferenceIdeal.Facts₀.bcast_S64_S1x64_1

theorem rs128_eq : rs128 = Cert.Model.row128 :=
  funext fun b => Cert.GraphLayers.reshapeAsRow_eq b Facts₀.shapeCasts_S128_S1x128 Cert.ReferenceIdeal.Facts₀.bcast_S128_S1x128_1

variable (m : (ℓ : Loc nD τ sig) → Buf (Elt Ideal) ℓ) (ρ : Dev nD → PrngReg)

attribute [local irreducible] Host.gather Host.scatterAdd in
set_option maxHeartbeats 8000000 in
/-- The result buffer after the last region: the network's function, its bias rows made by reshapes. -/
theorem value_rs (c : Dev nD) : W10 m ρ c (Proc.devRef .tc main_v53) = Cert.Model.modelWith rs64 rs128
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21)) := by
  rw [W10_fold]
  unfold op0 op1 op2 op3 op4
  dsimp only [hostOps0, hostOps1, hostOps2, hostOps3, hostOps4]
  simp (disch := decide) only [after_cons, after_nil, nullary_result', unary_result', binary_result', ternary_result',
    quaternary_result', reshape_result', op5_result, op6_result,
    nullary_result_ne', unary_result_ne', binary_result_ne', ternary_result_ne', quaternary_result_ne', reshape_result_ne',
    op5_result_ne, op6_result_ne]
  rfl

/-- The result buffer after the last region holds the network's function of the argument arrays at the launch. -/
theorem value (c : Dev nD) : W10 m ρ c (Proc.devRef .tc main_v53) = Cert.Model.model
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21)) := by
  rw [value_rs, rs64_eq, rs128_eq]
  rfl

/-- Every weakly fair execution of the program terminates, nothing faulting, with the result buffer at the network's
    function of the argument arrays and the argument arrays as launched. -/
theorem run : θ_run defs (onTc (τ := τ) (main (F := Ideal))) ⟨m, fun _ => 0, ρ⟩ (fun r => ∀ c : Dev nD,
      r.2.mem ((c.tc : Thread nD τ).loc main_v53) = Cert.Model.model
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun s h c => ⟨(h c).1.trans (value m ρ c), (h c).2⟩) (Cert.KernelIdeal.Run.run_result m ρ)

end Cert.KernelIdeal.Value

end
-- ==== Proof.RefRun.lean ====
/-
  The run of the idealized reference's @main, a program of StableHLO operations only (no kernel): @main is one
  straight line of operations once each call is replaced by its callee's body over that call's record of buffers
  (`relu`, `relu_1`, `relu_2`: the scalar zero, its broadcast, the maximum; `elu`: two comparisons with the
  broadcast zero, `_where`'s three (the scalar zero converted to its own type, broadcast, the select),
  `exp x - 1`, the broadcast one, the product, `_where_0`'s select), so every weakly fair execution on the
  TensorCores terminates with each buffer at the fold of the operations' results over the launch contents
  (`after ops`), and no operation writes an argument's buffer.
-/
import proofs.«104450_j5282809774138_1_alg».proof.Proof.Gen.ReferenceIdeal
import Idealize.ShloMosaic.Lib.StableHlo.Run

noncomputable section

namespace Cert.ReferenceIdeal.RefRun

open Cert.ReferenceIdeal Idealize.ShloMosaic Idealize.ShloMosaic.StableHlo Idealize.ShloMosaic.TcCoe Idealize.SL.Sem
open Facts₀

variable {F : FTy → Type} [FloatOps F]

/-- @main's operations in order, the calls unfolded: @main's own eighty-eight, and in their places the three of each
    `relu` (calls 0, 3, 6) and the fifteen of each `elu` (calls 1, 2, 4, 5: seven of its own, `_where`'s three,
    four more of its own, `_where_0`'s one) over that call's record — one hundred and fifty-seven. -/
abbrev ops : List (HloOp τ sig (Elt F)) :=
  [ StableHlo.nullary main_c (constantI S_ 32 0#32),
    StableHlo.unary main_c main_v0 (broadcastInDim S100000 ![] bcast_S_S100000 : (⟨S_, .i32⟩ : BufTy).Contents (Elt F) → (⟨S100000, .i32⟩ : BufTy).Contents (Elt F)),
    StableHlo.binary main_arg0 main_v0 main_v1 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 119#32),
    StableHlo.unary main_c_0 main_v2 (broadcastInDim S100000 ![] bcast_S_S100000 : (⟨S_, .i32⟩ : BufTy).Contents (Elt F) → (⟨S100000, .i32⟩ : BufTy).Contents (Elt F)),
    StableHlo.binary main_arg0 main_v2 main_v3 (addi : (⟨S100000, .i32⟩ : BufTy).Contents (Elt F) → (⟨S100000, .i32⟩ : BufTy).Contents (Elt F) → (⟨S100000, .i32⟩ : BufTy).Contents (Elt F)),
    StableHlo.ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v4 main_v5 (broadcastInDim S100000x1 ![0] bcast_S100000_S100000x1_0 : (⟨S100000, .i32⟩ : BufTy).Contents (Elt F) → (⟨S100000x1, .i32⟩ : BufTy).Contents (Elt F)),
    StableHlo.binary main_arg4 main_v5 main_v6 ((fun x i => Host.gather gather_S119x64_S100000x1_S100000x64_1_0_n_n_0_1_164 x i) : (⟨S119x64, .f32⟩ : BufTy).Contents (Elt F) → (⟨S100000x1, .i32⟩ : BufTy).Contents (Elt F) → (⟨S100000x64, .f32⟩ : BufTy).Contents (Elt F)),
    StableHlo.nullary main_c_1 (constantI S_ 32 0#32),
    StableHlo.unary main_c_1 main_v7 (broadcastInDim S1600000 ![] bcast_S_S1600000 : (⟨S_, .i32⟩ : BufTy).Contents (Elt F) → (⟨S1600000, .i32⟩ : BufTy).Contents (Elt F)),
    StableHlo.binary main_arg2 main_v7 main_v8 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 16#32),
    StableHlo.unary main_c_2 main_v9 (broadcastInDim S1600000 ![] bcast_S_S1600000 : (⟨S_, .i32⟩ : BufTy).Contents (Elt F) → (⟨S1600000, .i32⟩ : BufTy).Contents (Elt F)),
    StableHlo.binary main_arg2 main_v9 main_v10 (addi : (⟨S1600000, .i32⟩ : BufTy).Contents (Elt F) → (⟨S1600000, .i32⟩ : BufTy).Contents (Elt F) → (⟨S1600000, .i32⟩ : BufTy).Contents (Elt F)),
    StableHlo.ternary main_v8 main_v10 main_arg2 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v11 main_v12 (broadcastInDim S1600000x1 ![0] bcast_S1600000_S1600000x1_0 : (⟨S1600000, .i32⟩ : BufTy).Contents (Elt F) → (⟨S1600000x1, .i32⟩ : BufTy).Contents (Elt F)),
    StableHlo.binary main_arg5 main_v12 main_v13 ((fun x i => Host.gather gather_S16x64_S1600000x1_S1600000x64_1_0_n_n_0_1_164 x i) : (⟨S16x64, .f32⟩ : BufTy).Contents (Elt F) → (⟨S1600000x1, .i32⟩ : BufTy).Contents (Elt F) → (⟨S1600000x64, .f32⟩ : BufTy).Contents (Elt F)),
    StableHlo.unary main_arg1 main_v14 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v14 main_v15 rfl shapeCasts_S1x1600000_S1600000,
    StableHlo.unary main_arg1 main_v16 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v16 main_v17 rfl shapeCasts_S1x1600000_S1600000,
    StableHlo.nullary main_c_3 (constantI S_ 32 0#32),
    StableHlo.unary main_c_3 main_v18 (broadcastInDim S1600000 ![] bcast_S_S1600000 : (⟨S_, .i32⟩ : BufTy).Contents (Elt F) → (⟨S1600000, .i32⟩ : BufTy).Contents (Elt F)),
    StableHlo.binary main_v15 main_v18 main_v19 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v20 (broadcastInDim S1600000 ![] bcast_S_S1600000 : (⟨S_, .i32⟩ : BufTy).Contents (Elt F) → (⟨S1600000, .i32⟩ : BufTy).Contents (Elt F)),
    StableHlo.binary main_v15 main_v20 main_v21 (addi : (⟨S1600000, .i32⟩ : BufTy).Contents (Elt F) → (⟨S1600000, .i32⟩ : BufTy).Contents (Elt F) → (⟨S1600000, .i32⟩ : BufTy).Contents (Elt F)),
    StableHlo.ternary main_v19 main_v21 main_v15 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v22 main_v23 (broadcastInDim S1600000x1 ![0] bcast_S1600000_S1600000x1_0 : (⟨S1600000, .i32⟩ : BufTy).Contents (Elt F) → (⟨S1600000x1, .i32⟩ : BufTy).Contents (Elt F)),
    StableHlo.binary main_v6 main_v23 main_v24 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v13 main_arg6 main_v25 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.binary main_v24 main_v25 main_v26 (addf : (⟨S1600000x64, .f32⟩ : BufTy).Contents (Elt F) → (⟨S1600000x64, .f32⟩ : BufTy).Contents (Elt F) → (⟨S1600000x64, .f32⟩ : BufTy).Contents (Elt F)),
    StableHlo.unary main_arg7 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S1600000x64 ![0, 1] bcast_S1x64_S1600000x64_0_1 : (⟨S1x64, .f32⟩ : BufTy).Contents (Elt F) → (⟨S1600000x64, .f32⟩ : BufTy).Contents (Elt F)),
    StableHlo.binary main_v26 main_v28 main_v29 (addf : (⟨S1600000x64, .f32⟩ : BufTy).Contents (Elt F) → (⟨S1600000x64, .f32⟩ : BufTy).Contents (Elt F) → (⟨S1600000x64, .f32⟩ : BufTy).Contents (Elt F)),
    StableHlo.TRef.nullary main_call0.cst (constant S_ .f32 0x00000000#32),
    StableHlo.TRef.unary main_call0.cst main_call0.v0 (broadcastInDim S1600000x64 ![] bcast_S_S1600000x64),
    StableHlo.TRef.binary (.of main_v29) main_call0.v0 main_call0.v1 maximumf,
    StableHlo.nullary main_cst (constant S_ .f32 0x00000000#32),
    StableHlo.unary main_cst main_v31 (broadcastInDim S100000x64 ![] bcast_S_S100000x64 : (⟨S_, .f32⟩ : BufTy).Contents (Elt F) → (⟨S100000x64, .f32⟩ : BufTy).Contents (Elt F)),
    StableHlo.unary main_v17 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v6 main_v33 main_v34 (addf : (⟨S100000x64, .f32⟩ : BufTy).Contents (Elt F) → (⟨S100000x64, .f32⟩ : BufTy).Contents (Elt F) → (⟨S100000x64, .f32⟩ : BufTy).Contents (Elt F)),
    StableHlo.binary main_v34 main_arg8 main_v35 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg9 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v38) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v38) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v38) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v38) main_call1.v7 main_call1.call1.v0 select,
    StableHlo.binary main_v39 main_arg10 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v43) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v43) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (.of main_v43) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (.of main_v43) main_call2.v7 main_call2.call1.v0 select,
    StableHlo.nullary main_c_5 (constantI S_ 32 0#32),
    StableHlo.unary main_c_5 main_v45 (broadcastInDim S1600000 ![] bcast_S_S1600000 : (⟨S_, .i32⟩ : BufTy).Contents (Elt F) → (⟨S1600000, .i32⟩ : BufTy).Contents (Elt F)),
    StableHlo.binary main_v15 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v47 (broadcastInDim S1600000 ![] bcast_S_S1600000 : (⟨S_, .i32⟩ : BufTy).Contents (Elt F) → (⟨S1600000, .i32⟩ : BufTy).Contents (Elt F)),
    StableHlo.binary main_v15 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v15 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.binary main_v13 main_arg12 main_v52 ((fun l r => Host.dotGeneral dot_S1600000x64_S64x128_S1600000x128_1_0_0_1_n_n none l r) : (⟨S1600000x64, .f32⟩ : BufTy).Contents (Elt F) → (⟨S64x128, .f32⟩ : BufTy).Contents (Elt F) → (⟨S1600000x128, .f32⟩ : BufTy).Contents (Elt F)),
    StableHlo.binary main_v51 main_v52 main_v53 (addf : (⟨S1600000x128, .f32⟩ : BufTy).Contents (Elt F) → (⟨S1600000x128, .f32⟩ : BufTy).Contents (Elt F) → (⟨S1600000x128, .f32⟩ : BufTy).Contents (Elt F)),
    StableHlo.unary main_arg13 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S1600000x128 ![0, 1] bcast_S1x128_S1600000x128_0_1 : (⟨S1x128, .f32⟩ : BufTy).Contents (Elt F) → (⟨S1600000x128, .f32⟩ : BufTy).Contents (Elt F)),
    StableHlo.binary main_v53 main_v55 main_v56 (addf : (⟨S1600000x128, .f32⟩ : BufTy).Contents (Elt F) → (⟨S1600000x128, .f32⟩ : BufTy).Contents (Elt F) → (⟨S1600000x128, .f32⟩ : BufTy).Contents (Elt F)),
    StableHlo.TRef.nullary main_call3.cst (constant S_ .f32 0x00000000#32),
    StableHlo.TRef.unary main_call3.cst main_call3.v0 (broadcastInDim S1600000x128 ![] bcast_S_S1600000x128),
    StableHlo.TRef.binary (.of main_v56) main_call3.v0 main_call3.v1 maximumf,
    StableHlo.nullary main_cst_7 (constant S_ .f32 0x00000000#32),
    StableHlo.unary main_cst_7 main_v58 (broadcastInDim S100000x128 ![] bcast_S_S100000x128 : (⟨S_, .f32⟩ : BufTy).Contents (Elt F) → (⟨S100000x128, .f32⟩ : BufTy).Contents (Elt F)),
    StableHlo.unary main_v17 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v44 main_v60 main_v61 (addf : (⟨S100000x128, .f32⟩ : BufTy).Contents (Elt F) → (⟨S100000x128, .f32⟩ : BufTy).Contents (Elt F) → (⟨S100000x128, .f32⟩ : BufTy).Contents (Elt F)),
    StableHlo.binary main_v61 main_arg14 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v65) main_call4.v0 main_call4.v1 (cmpf .ogt),
    StableHlo.TRef.nullary main_call4.cst_0 (constant S_ .f32 0x00000000#32),
    StableHlo.TRef.unary main_call4.cst_0 main_call4.v2 (broadcastInDim S100000x128 ![] bcast_S_S100000x128),
    StableHlo.TRef.binary (.of main_v65) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x128 ![] bcast_S_S100000x128),
    StableHlo.TRef.ternary main_call4.v3 main_call4.call0.v1 (.of main_v65) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x128 ![] bcast_S_S100000x128),
    StableHlo.TRef.binary main_call4.v6 main_call4.v5 main_call4.v7 mulf,
    StableHlo.TRef.ternary main_call4.v1 (.of main_v65) main_call4.v7 main_call4.call1.v0 select,
    StableHlo.binary main_v66 main_arg16 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg17 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v70) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v70) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v70) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v70) main_call5.v7 main_call5.call1.v0 select,
    StableHlo.nullary main_cst_8 (constant S_ .f32 0x00000000#32),
    StableHlo.unary main_cst_8 main_v72 (broadcastInDim S512x128 ![] bcast_S_S512x128 : (⟨S_, .f32⟩ : BufTy).Contents (Elt F) → (⟨S512x128, .f32⟩ : BufTy).Contents (Elt F)),
    StableHlo.unary main_arg3 main_v73 (broadcastInDim S100000x1 ![0] bcast_S100000_S100000x1_0 : (⟨S100000, .i32⟩ : BufTy).Contents (Elt F) → (⟨S100000x1, .i32⟩ : BufTy).Contents (Elt F)),
    StableHlo.ternary main_v72 main_v73 main_v71 main_v74 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.binary main_v74 main_arg18 main_v75 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg19 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S512x128 ![0, 1] bcast_S1x128_S512x128_0_1 : (⟨S1x128, .f32⟩ : BufTy).Contents (Elt F) → (⟨S512x128, .f32⟩ : BufTy).Contents (Elt F)),
    StableHlo.binary main_v75 main_v77 main_v78 (addf : (⟨S512x128, .f32⟩ : BufTy).Contents (Elt F) → (⟨S512x128, .f32⟩ : BufTy).Contents (Elt F) → (⟨S512x128, .f32⟩ : BufTy).Contents (Elt F)),
    StableHlo.TRef.nullary main_call6.cst (constant S_ .f32 0x00000000#32),
    StableHlo.TRef.unary main_call6.cst main_call6.v0 (broadcastInDim S512x128 ![] bcast_S_S512x128),
    StableHlo.TRef.binary (.of main_v78) main_call6.v0 main_call6.v1 maximumf,
    StableHlo.binary main_v79 main_arg20 main_v80 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg21 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S512x128 ![0, 1] bcast_S1x128_S512x128_0_1 : (⟨S1x128, .f32⟩ : BufTy).Contents (Elt F) → (⟨S512x128, .f32⟩ : BufTy).Contents (Elt F)),
    StableHlo.binary main_v80 main_v82 main_v83 (addf : (⟨S512x128, .f32⟩ : BufTy).Contents (Elt F) → (⟨S512x128, .f32⟩ : BufTy).Contents (Elt F) → (⟨S512x128, .f32⟩ : BufTy).Contents (Elt F)) ]

set_option maxRecDepth 8192 in
/-- @main is that straight line: the two windows and the functions' definitions unfolded at their calls and the
    records at their fields, both sides are one chain of `hlo` steps once sequencing is reassociated
    (`bind_assoc`, `pure_bind`). -/
theorem main_eq (c : Dev nD) : main (F := F) c = seq ops := by
  simp only [main, main_part0, main_part1, fn_relu.body, fn_elu.body, fn_where.body, fn_where_0.body, fn_relu_1.body,
    fn_relu_2.body, seq, bind_assoc, pure_bind]

/-- No TensorCore buffer of the signature is scoped (every buffer is a tensor value's, in HBM). -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., unary_bufs_sub ..,
    unary_bufs_sub .., ternary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments

No operation of the line writes an argument's buffer (each writes its own result buffer, a different reference), so
after the line each argument's buffer holds what it held: the fold unrolled, every operation's result at a reference
not its own is what was there. The gather's and the scatter-add's bodies are folds over their operands' elements and
are kept folded meanwhile: the equations never look inside them. -/

attribute [local irreducible] Host.gather Host.scatterAdd in
set_option maxRecDepth 8192 in
/-- Argument 0's buffer is written by no operation: it ends at its launch contents. -/
theorem arg0_eq (V : Valuation τ sig (Elt F)) :
    after ops V (main_arg0 : DevRef τ sig) = V (main_arg0 : DevRef τ sig) := by
  after_results_simp

attribute [local irreducible] Host.gather Host.scatterAdd in
set_option maxRecDepth 8192 in
/-- Argument 1's buffer is written by no operation: it ends at its launch contents. -/
theorem arg1_eq (V : Valuation τ sig (Elt F)) :
    after ops V (main_arg1 : DevRef τ sig) = V (main_arg1 : DevRef τ sig) := by
  after_results_simp

attribute [local irreducible] Host.gather Host.scatterAdd in
set_option maxRecDepth 8192 in
/-- Argument 2's buffer is written by no operation: it ends at its launch contents. -/
theorem arg2_eq (V : Valuation τ sig (Elt F)) :
    after ops V (main_arg2 : DevRef τ sig) = V (main_arg2 : DevRef τ sig) := by
  after_results_simp

attribute [local irreducible] Host.gather Host.scatterAdd in
set_option maxRecDepth 8192 in
/-- Argument 3's buffer is written by no operation: it ends at its launch contents. -/
theorem arg3_eq (V : Valuation τ sig (Elt F)) :
    after ops V (main_arg3 : DevRef τ sig) = V (main_arg3 : DevRef τ sig) := by
  after_results_simp

attribute [local irreducible] Host.gather Host.scatterAdd in
set_option maxRecDepth 8192 in
/-- Argument 4's buffer is written by no operation: it ends at its launch contents. -/
theorem arg4_eq (V : Valuation τ sig (Elt F)) :
    after ops V (main_arg4 : DevRef τ sig) = V (main_arg4 : DevRef τ sig) := by
  after_results_simp

attribute [local irreducible] Host.gather Host.scatterAdd in
set_option maxRecDepth 8192 in
/-- Argument 5's buffer is written by no operation: it ends at its launch contents. -/
theorem arg5_eq (V : Valuation τ sig (Elt F)) :
    after ops V (main_arg5 : DevRef τ sig) = V (main_arg5 : DevRef τ sig) := by
  after_results_simp

attribute [local irreducible] Host.gather Host.scatterAdd in
set_option maxRecDepth 8192 in
/-- Argument 6's buffer is written by no operation: it ends at its launch contents. -/
theorem arg6_eq (V : Valuation τ sig (Elt F)) :
    after ops V (main_arg6 : DevRef τ sig) = V (main_arg6 : DevRef τ sig) := by
  after_results_simp

attribute [local irreducible] Host.gather Host.scatterAdd in
set_option maxRecDepth 8192 in
/-- Argument 7's buffer is written by no operation: it ends at its launch contents. -/
theorem arg7_eq (V : Valuation τ sig (Elt F)) :
    after ops V (main_arg7 : DevRef τ sig) = V (main_arg7 : DevRef τ sig) := by
  after_results_simp

attribute [local irreducible] Host.gather Host.scatterAdd in
set_option maxRecDepth 8192 in
/-- Argument 8's buffer is written by no operation: it ends at its launch contents. -/
theorem arg8_eq (V : Valuation τ sig (Elt F)) :
    after ops V (main_arg8 : DevRef τ sig) = V (main_arg8 : DevRef τ sig) := by
  after_results_simp

attribute [local irreducible] Host.gather Host.scatterAdd in
set_option maxRecDepth 8192 in
/-- Argument 9's buffer is written by no operation: it ends at its launch contents. -/
theorem arg9_eq (V : Valuation τ sig (Elt F)) :
    after ops V (main_arg9 : DevRef τ sig) = V (main_arg9 : DevRef τ sig) := by
  after_results_simp

attribute [local irreducible] Host.gather Host.scatterAdd in
set_option maxRecDepth 8192 in
/-- Argument 10's buffer is written by no operation: it ends at its launch contents. -/
theorem arg10_eq (V : Valuation τ sig (Elt F)) :
    after ops V (main_arg10 : DevRef τ sig) = V (main_arg10 : DevRef τ sig) := by
  after_results_simp

attribute [local irreducible] Host.gather Host.scatterAdd in
set_option maxRecDepth 8192 in
/-- Argument 11's buffer is written by no operation: it ends at its launch contents. -/
theorem arg11_eq (V : Valuation τ sig (Elt F)) :
    after ops V (main_arg11 : DevRef τ sig) = V (main_arg11 : DevRef τ sig) := by
  after_results_simp

attribute [local irreducible] Host.gather Host.scatterAdd in
set_option maxRecDepth 8192 in
/-- Argument 12's buffer is written by no operation: it ends at its launch contents. -/
theorem arg12_eq (V : Valuation τ sig (Elt F)) :
    after ops V (main_arg12 : DevRef τ sig) = V (main_arg12 : DevRef τ sig) := by
  after_results_simp

attribute [local irreducible] Host.gather Host.scatterAdd in
set_option maxRecDepth 8192 in
/-- Argument 13's buffer is written by no operation: it ends at its launch contents. -/
theorem arg13_eq (V : Valuation τ sig (Elt F)) :
    after ops V (main_arg13 : DevRef τ sig) = V (main_arg13 : DevRef τ sig) := by
  after_results_simp

attribute [local irreducible] Host.gather Host.scatterAdd in
set_option maxRecDepth 8192 in
/-- Argument 14's buffer is written by no operation: it ends at its launch contents. -/
theorem arg14_eq (V : Valuation τ sig (Elt F)) :
    after ops V (main_arg14 : DevRef τ sig) = V (main_arg14 : DevRef τ sig) := by
  after_results_simp

attribute [local irreducible] Host.gather Host.scatterAdd in
set_option maxRecDepth 8192 in
/-- Argument 15's buffer is written by no operation: it ends at its launch contents. -/
theorem arg15_eq (V : Valuation τ sig (Elt F)) :
    after ops V (main_arg15 : DevRef τ sig) = V (main_arg15 : DevRef τ sig) := by
  after_results_simp

attribute [local irreducible] Host.gather Host.scatterAdd in
set_option maxRecDepth 8192 in
/-- Argument 16's buffer is written by no operation: it ends at its launch contents. -/
theorem arg16_eq (V : Valuation τ sig (Elt F)) :
    after ops V (main_arg16 : DevRef τ sig) = V (main_arg16 : DevRef τ sig) := by
  after_results_simp

attribute [local irreducible] Host.gather Host.scatterAdd in
set_option maxRecDepth 8192 in
/-- Argument 17's buffer is written by no operation: it ends at its launch contents. -/
theorem arg17_eq (V : Valuation τ sig (Elt F)) :
    after ops V (main_arg17 : DevRef τ sig) = V (main_arg17 : DevRef τ sig) := by
  after_results_simp

attribute [local irreducible] Host.gather Host.scatterAdd in
set_option maxRecDepth 8192 in
/-- Argument 18's buffer is written by no operation: it ends at its launch contents. -/
theorem arg18_eq (V : Valuation τ sig (Elt F)) :
    after ops V (main_arg18 : DevRef τ sig) = V (main_arg18 : DevRef τ sig) := by
  after_results_simp

attribute [local irreducible] Host.gather Host.scatterAdd in
set_option maxRecDepth 8192 in
/-- Argument 19's buffer is written by no operation: it ends at its launch contents. -/
theorem arg19_eq (V : Valuation τ sig (Elt F)) :
    after ops V (main_arg19 : DevRef τ sig) = V (main_arg19 : DevRef τ sig) := by
  after_results_simp

attribute [local irreducible] Host.gather Host.scatterAdd in
set_option maxRecDepth 8192 in
/-- Argument 20's buffer is written by no operation: it ends at its launch contents. -/
theorem arg20_eq (V : Valuation τ sig (Elt F)) :
    after ops V (main_arg20 : DevRef τ sig) = V (main_arg20 : DevRef τ sig) := by
  after_results_simp

attribute [local irreducible] Host.gather Host.scatterAdd in
set_option maxRecDepth 8192 in
/-- Argument 21's buffer is written by no operation: it ends at its launch contents. -/
theorem arg21_eq (V : Valuation τ sig (Elt F)) :
    after ops V (main_arg21 : DevRef τ sig) = V (main_arg21 : DevRef τ sig) := by
  after_results_simp

end Cert.ReferenceIdeal.RefRun

end
-- ==== Proof.RefValue.lean ====
/-
  What the idealized reference computes: after @main's line of operations the result buffer holds the network's
  function of the twenty-two argument arrays (`Cert.Model.model`), and the arguments are unchanged.

  The fold of the operations at the result buffer is, operation by operation, the composition of their functions at the
  buffers each reads: the lookups of the node and edge features (a negative index wrapped by the table's length), the two
  convolutions (the gather at the source nodes, the edge layer clipped at zero, the sum at the target nodes, the two
  dense layers each through the exponential linear unit) and the readout (the sum per graph, a dense layer clipped at
  zero, a dense layer). That composition is the model's by unfolding: the model is written in the host's own spelling,
  over the reference program's own dimension records and shape facts.
-/
import proofs.«104450_j5282809774138_1_alg».proof.Proof.RefRun
import proofs.«104450_j5282809774138_1_alg».proof.Proof.Model

noncomputable section

namespace Cert.ReferenceIdeal.RefValue

open Cert.ReferenceIdeal Cert.ReferenceIdeal.RefRun Idealize.ShloMosaic Idealize.ShloMosaic.StableHlo
  Idealize.ShloMosaic.TcCoe Idealize.SL.Sem

attribute [local irreducible] Host.gather Host.scatterAdd in
set_option maxRecDepth 65536 in
set_option maxHeartbeats 4000000 in
/-- The fold at the result buffer is the model of the arguments' contents: the fold unrolled, each operation's result at
    its own buffer its function's value at the buffers it reads and at any other buffer what was there; what is left
    is the operations' composed term, which is the model's by unfolding its definitions (the typed references' transports
    are the identity at these literal references). The gather's and the scatter-add's bodies are folds over their
    operands' elements and are kept folded: the equation never looks inside them. -/
theorem out_eq (V : Valuation τ sig (Elt Ideal)) :
    after (ops (F := Ideal)) V (main_v83 : DevRef τ sig)
      = Cert.Model.model (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig)) (V (main_arg16 : DevRef τ sig)) (V (main_arg17 : DevRef τ sig))
          (V (main_arg18 : DevRef τ sig)) (V (main_arg19 : DevRef τ sig)) (V (main_arg20 : DevRef τ sig)) (V (main_arg21 : DevRef τ sig)) := by
  after_results_simp
  chain_rfl

/-- At the compiled mesh, on the extended reals, from any memory with zero counters: every weakly fair execution of
    @main on the TensorCores terminates, and every final state has the result buffer at the model of the arguments'
    launch contents and every argument's buffer at its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v83)
        = Cert.Model.model (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18)) (m ((c.tc : Thread nD τ).loc main_arg19))
          (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run (defs (F := Ideal)) _ _).mono (fun _ h c => ⟨(h c main_v83).trans (out_eq (launchContents m c)),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _), (h c main_arg14).trans (arg14_eq _),
      (h c main_arg15).trans (arg15_eq _), (h c main_arg16).trans (arg16_eq _), (h c main_arg17).trans (arg17_eq _),
      (h c main_arg18).trans (arg18_eq _), (h c main_arg19).trans (arg19_eq _), (h c main_arg20).trans (arg20_eq _),
      (h c main_arg21).trans (arg21_eq _)⟩)
    (run_main m ρ)

end Cert.ReferenceIdeal.RefValue

end
-- ==== Proof.lean ====
/-
  The certificate of a two-layer message-passing network with a pooled readout: a program of five pipelined kernels
  among stretches of host operations, against a plain host program.

  Both programs look node and edge features up in two tables, and for each of two convolutions gather the features of
  every edge's source node, pass them with the edge features through an edge layer (a dense layer added to the gathered
  rows, clipped at zero), add the messages up at every edge's target node, and pass the node features with those sums
  through a node layer (two dense layers, each followed by the exponential linear unit); the node features are then
  added up per graph and passed through a readout of two dense layers.  The first program runs the three kinds of dense
  layer as kernels over blocks of rows, rounding their matrix operands to a narrower format on the way in; the second
  runs everything as host operations on whole arrays.

  On the extended reals a change of float format is the identity, a kernel's matrix product into a zero accumulator and
  the host's are the same sum over the shared axis, and exp x − 1 is what the host's expm1 denotes; row r of every
  layer's result depends only on row r of its row inputs, so the blocks of a kernel's result are the blocks of one
  function of the whole arrays.  Each kernel therefore acts on the program's buffers as one host operation with its
  layer's function, the two programs are two lines of the same operations up to how a bias vector is made into a one-row
  array (a reshape in one, a broadcast in the other: the same array), and both end with the result buffer at one function
  of the twenty-two argument arrays.  No law of the extended reals beyond that is used, so the precondition is never
  opened.  Nothing was rewritten between the kernel program and its idealization, so that claim is trivial.  The three
  frames are the programs' runs with the result forgotten.
-/
import proofs.«104450_j5282809774138_1_alg».proof.Defs
import proofs.«104450_j5282809774138_1_alg».proof.Proof.Gen.Kernel
import proofs.«104450_j5282809774138_1_alg».proof.Proof.Gen.KernelIdeal
import proofs.«104450_j5282809774138_1_alg».proof.Proof.Gen.ReferenceIdeal
import proofs.«104450_j5282809774138_1_alg».proof.Proof.Gen.Pre_finite_inputs
import proofs.«104450_j5282809774138_1_alg».proof.Proof.GenP.Kernel.Frame
import proofs.«104450_j5282809774138_1_alg».proof.Proof.GenP.KernelIdeal.Frame
import proofs.«104450_j5282809774138_1_alg».proof.Proof.KernelValue
import proofs.«104450_j5282809774138_1_alg».proof.Proof.RefValue
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- Nothing was rewritten between the kernel program and its idealization. -/
theorem preserves : Cert.preserves_Kernel_KernelIdeal := trivial

/-- Both idealized programs end with the result at the network's function of the argument arrays, and the argument
    arrays agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13, h14, h15, h16, h17, h18, h19, h20, h21⟩ := hagree c
  rw [h0, h1, h2, h3, h4, h5, h6, h7, h8, h9, h10, h11, h12, h13, h14, h15, h16, h17, h18, h19, h20, h21]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
